-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x2048x1024 .f32) (main_arg1 : FVec F S3072x1024 .f32) (main_arg2 : FVec F S1024x1024 .f32) (main_arg3 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x2048x1024 : Shape := ⟨3, ![8, 2048, 1024]⟩
abbrev S3072x1024 : Shape := ⟨2, ![3072, 1024]⟩
abbrev S1024x1024 : Shape := ⟨2, ![1024, 1024]⟩
abbrev S1024 : Shape := ⟨1, ![1024]⟩
abbrev S16384x1024 : Shape := ⟨2, ![16384, 1024]⟩
abbrev S1024x3072 : Shape := ⟨2, ![1024, 3072]⟩
abbrev S1x1024 : Shape := ⟨2, ![1, 1024]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1024x3072, .f32⟩
  | .hbm, ⟨6, _⟩ => ⟨S1024x3072, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S16384x3072, .bf16⟩
  | .hbm, ⟨11, _⟩ => ⟨S8x2048x3072, .bf16⟩
  | .hbm, ⟨12, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1024x1024, .bf16⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S8x2048x1024_S16384x1024 : S8x2048x1024.ShapeCasts S16384x1024
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  dot_S512x1024_S1024x3072_S512x3072_1_0_0_1_n_n_wf : DotDims.WF S512x1024 S1024x3072 S512x3072 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x3072.size a
  hwx1_0 : ∀ i : grid1.Coords, EltTy.bits .bf16 = 32 ∨ (Rect.block (s := S8x2048x3072) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x3072.size a
  hwx1_1 : ∀ i : grid1.Coords, EltTy.bits .bf16 = 32 ∨ (Rect.block (s := S8x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x3072.size a
  hwx1_2 : ∀ i : grid1.Coords, EltTy.bits .bf16 = 32 ∨ (Rect.block (s := S8x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S8x2048x1024.size a
  hwx1_5 : ∀ i : grid1.Coords, EltTy.bits .f32 = 32 ∨ (Rect.block (s := S8x2048x1024) S1x256x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S3072x1024 : Shape := ⟨2, ![3072, 1024]⟩
abbrev S1024x1024 : Shape := ⟨2, ![1024, 1024]⟩
abbrev S1024 : Shape := ⟨1, ![1024]⟩
abbrev S8x2048x3072 : Shape := ⟨3, ![8, 2048, 3072]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8x2048x3072, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  slices_S8x2048x3072_S8x2048x1024_0_0_0 : S8x2048x3072.Slices ![0, 0, 0] S8x2048x1024
  slices_S8x2048x3072_S8x2048x1024_0_0_1024 : S8x2048x3072.Slices ![0, 0, 1024] S8x2048x1024
  slices_S8x2048x3072_S8x2048x1024_0_0_2048 : S8x2048x3072.Slices ![0, 0, 2048] S8x2048x1024
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S3072x1024_S8x2048x3072_2_1_01_0_n_n_wf : DotDims.WF S8x2048x1024 S3072x1024 S8x2048x3072 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x1024_S1024x1024_S8x2048x1024_2_1_01_0_n_n_wf : DotDims.WF S8x2048x1024 S1024x1024 S8x2048x1024 [2] [1] [0, 1] [0] [] []

variable [Facts₀]

def dot_S8x2048x1024_S3072x1024_S8x2048x3072_2_1_01_0_n_n : DotDims S8x2048x1024 S3072x1024 S8x2048x3072 where
  lhsContracting := [2]
  rhsContracting := [1]
  lhsNonContracting := [0, 1]
  rhsNonContracting := [0]
  lhsBatch := []
  rhsBatch := []
  wf := dot_S8x2048x1024_S3072x1024_S8x2048x3072_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.BitsProjRegion.lean ====
/-
  The projection region: on a grid of 32 points, point t reads rows 512·t … 512·t + 511 of the
  [16384, 1024] activations and the whole [1024, 3072] weight matrix, and writes the same rows of the
  [16384, 3072] product. The body loads the two blocks whole and stores one whole block: what it
  leaves in the output's staging buffer is a function (the store's payload) of the two input
  blocks. Here: that function, the body's triple, and the pipeline's proof data over it, at any
  contents `V` the region is entered with; the invariant is the untouched rest of the core.
-/
import proofs.«149828_j84628035600548_2_alg».proof.Proof.Gen.Kernel.Launch
import proofs.«149828_j84628035600548_2_alg».proof.Proof.Gen.Kernel.Skeleton
import proofs.«149828_j84628035600548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not
    (unfetched, the block index has not moved), for any proof data over `V` whose body leaves the block in place. -/
theorem rows_found_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem weights_found_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The body's three accesses: each the whole buffer. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rO : Rect S512x3072 := Rect.unit (s := S512x3072) ![0, 0] S512x3072.size inb_S512x3072_S512x3072_0_0

/-- What the body leaves in the output's staging buffer, from the two input blocks: its one store. -/
def product (x : Vec F S512x1024 .f32) (w : Vec F S1024x3072 .bf16) : Vec F S512x3072 .bf16 :=
  View.canon [⟨rO, k0_pay1 (View.ld x rX) (View.ld w rW)⟩]

/-- The one store covers the buffer. -/
theorem store_covers (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

set_option maxHeartbeats 1000000 in
/-- The body on whole staging memrefs, the inputs' at contents `x`, `w` and the output's at anything, runs to the
    continuation holding the inputs' as they were and the output's at `product x w`. -/
theorem body_triple (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S512x3072 .bf16) (harg3 : arg3.IsWhole)
    (x : Vec F S512x1024 .f32) (w : Vec F S1024x3072 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (product x w)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-- The proof data of the projection pipeline on core `c`: the arrays as the region finds them; after the body at
    point `t` each input's buffer at its block and the output's at `product` of the two blocks; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_out (c : Dev nD) (t : Fin cfg0.N) : (dat V c).after 2 t = product (blockAt V c 0 t) (blockAt V c 1 t) := by dsimp only [dat]

theorem rows_found (c : Dev nD) (t : Fin cfg0.N) (d) : (dat V c).before 0 t d = blockAt V c 0 t :=
  rows_found_of V (dat V c) (dat_A V c 0) (after_rows V c) t d
theorem weights_found (c : Dev nD) (t : Fin cfg0.N) (d) : (dat V c).before 1 t d = blockAt V c 1 t :=
  weights_found_of V (dat V c) (dat_A V c 1) (after_weights V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact body_at V c t

end Cert.Kernel.Proj

end
-- ==== Proof.BitsAttnRegion.lean ====
/-
  The attention region: on a grid of 8 × 8 points, point (b, i) reads of the [8, 2048, 3072] projections the
  rows 256·i … 256·i + 255 of batch b in columns 0 … 1023 (the queries), all 2048 rows of batch b in
  columns 1024 … 2047 (the keys) and in columns 2048 … 3071 (the values) — three windows on ONE array —,
  the whole [1024, 1024] output weights and the [1, 1024] bias, and writes rows 256·i … 256·i + 255 of batch b
  of the [8, 2048, 1024] result. The body loads the five blocks whole and stores one whole block: what it leaves
  in the output's staging buffer is a function (the store's payload) of the five input blocks. Here: that
  function, the body's triple, and the pipeline's proof data over it, at any contents `V` the region is
  entered with. The array the three windows share is held in three parts of the full share, one per window.
-/
import proofs.«149828_j84628035600548_2_alg».proof.Proof.Gen.Kernel.Launch
import proofs.«149828_j84628035600548_2_alg».proof.Proof.Gen.Kernel.Skeleton
import proofs.«149828_j84628035600548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not
    (unfetched, the block index has not moved), for any proof data over `V` whose body leaves the block in place:
    one statement per input window. -/
theorem q_found_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem k_found_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem v_found_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem wo_found_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem b_found_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The body's accesses: each the whole buffer. -/
abbrev rQ : Rect S1x256x1024 := Rect.unit (s := S1x256x1024) ![0, 0, 0] S1x256x1024.size inb_S1x256x1024_S1x256x1024_0_0_0
abbrev rKV : Rect S1x2048x1024 := Rect.unit (s := S1x2048x1024) ![0, 0, 0] S1x2048x1024.size inb_S1x2048x1024_S1x2048x1024_0_0_0
abbrev rWo : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What the body leaves in the output's staging buffer, from the five input blocks: its one store. -/
def attended (q : Vec F S1x256x1024 .bf16) (k v : Vec F S1x2048x1024 .bf16) (wo : Vec F S1024x1024 .bf16) (b : Vec F S1x1024 .f32) :
    Vec F S1x256x1024 .f32 :=
  View.canon [⟨rQ, k1_pay1 (View.ld q rQ) (View.ld k rKV) (View.ld v rKV) (View.ld wo rWo) (View.ld b rB)⟩]

/-- The one store covers the buffer. -/
theorem store_covers (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

set_option maxHeartbeats 1000000 in
/-- The body on whole staging memrefs, the inputs' at given contents and the output's at anything, runs to the
    continuation holding the inputs' as they were and the output's at `attended` of them. -/
theorem body_triple (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x256x1024 .f32) (harg7 : arg7.IsWhole)
    (q : Vec F S1x256x1024 .bf16) (k v : Vec F S1x2048x1024 .bf16) (wo : Vec F S1024x1024 .bf16) (b : Vec F S1x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare wo ∗ owns (c : Thread nD τ) arg6 fullShare b ∗ (∃ d, owns (c : Thread nD τ) arg7 fullShare d)
        ∗ (iprop(owns (c : Thread nD τ) arg2 fullShare q ∗ owns (c : Thread nD τ) arg3 fullShare k ∗ owns (c : Thread nD τ) arg4 fullShare v
            ∗ owns (c : Thread nD τ) arg5 fullShare wo ∗ owns (c : Thread nD τ) arg6 fullShare b
            ∗ owns (c : Thread nD τ) arg7 fullShare (attended q k v wo b)) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2
  subst hf3
  subst hf4
  subst hf5
  subst hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-- The proof data of the attention pipeline on core `c`: the arrays as the region finds them; after the body at
    point `t` each input's buffer at its block and the output's at `attended` of the five blocks; nothing owed; the
    shared array in three parts, the other arrays whole. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => attended (blockAt V c 0 t) (blockAt V c 1 t) (blockAt V c 2 t) (blockAt V c 3 t) (blockAt V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem dat_A (c : Dev nD) (w : Fin cfg1.W) : (dat V c).A w = V c (Pipeline.arrRef spec1 w) := by
  dsimp only [dat]

theorem after_q (c : Dev nD) (t : Fin cfg1.N) : (dat V c).after 0 t = blockAt V c 0 t := by dsimp only [dat]
theorem after_k (c : Dev nD) (t : Fin cfg1.N) : (dat V c).after 1 t = blockAt V c 1 t := by dsimp only [dat]
theorem after_v (c : Dev nD) (t : Fin cfg1.N) : (dat V c).after 2 t = blockAt V c 2 t := by dsimp only [dat]
theorem after_wo (c : Dev nD) (t : Fin cfg1.N) : (dat V c).after 3 t = blockAt V c 3 t := by dsimp only [dat]
theorem after_b (c : Dev nD) (t : Fin cfg1.N) : (dat V c).after 4 t = blockAt V c 4 t := by dsimp only [dat]
theorem after_out (c : Dev nD) (t : Fin cfg1.N) :
    (dat V c).after 5 t = attended (blockAt V c 0 t) (blockAt V c 1 t) (blockAt V c 2 t) (blockAt V c 3 t) (blockAt V c 4 t) := by dsimp only [dat]

theorem q_found (c : Dev nD) (t : Fin cfg1.N) (d) : (dat V c).before 0 t d = blockAt V c 0 t :=
  q_found_of V (dat V c) (dat_A V c 0) (after_q V c) t d
theorem k_found (c : Dev nD) (t : Fin cfg1.N) (d) : (dat V c).before 1 t d = blockAt V c 1 t :=
  k_found_of V (dat V c) (dat_A V c 1) (after_k V c) t d
theorem v_found (c : Dev nD) (t : Fin cfg1.N) (d) : (dat V c).before 2 t d = blockAt V c 2 t :=
  v_found_of V (dat V c) (dat_A V c 2) (after_v V c) t d
theorem wo_found (c : Dev nD) (t : Fin cfg1.N) (d) : (dat V c).before 3 t d = blockAt V c 3 t :=
  wo_found_of V (dat V c) (dat_A V c 3) (after_wo V c) t d
theorem b_found (c : Dev nD) (t : Fin cfg1.N) (d) : (dat V c).before 4 t d = blockAt V c 4 t :=
  b_found_of V (dat V c) (dat_A V c 4) (after_b V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [q_found, k_found, v_found, wo_found, b_found]
  rw [show (dat V c).Φ t.succ = (dat V c).Φ t.castSucc from rfl,
    show (dat V c).owesAt () t.succ = (dat V c).owesAt () t.castSucc from rfl,
    after_q, after_k, after_v, after_wo, after_b, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact body_at V c t

end Cert.Kernel.Attn

end
-- ==== Proof.BitsAttnArrays.lean ====
/-
  The attention region's arrays. Its six windows sit on four buffers: the projections (three windows: queries,
  keys, values), the output weights, the bias, the result. The pipeline holds each window's array at a share;
  the three windows on the projections hold it at the left half, the left half of the right half and the right
  half of the right half of the full share, which together are the full share. Here: the core's unscoped
  buffers at entry split into the six windows' arrays and the rest, and at exit the six windows' arrays — the
  three parts holding one and the same contents — and the rest make the core's unscoped buffers again.
-/
import proofs.«149828_j84628035600548_2_alg».proof.Proof.BitsAttnRegion

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind the six windows, one by one. -/
theorem arrBufs_chain (c : Dev nD) (W : (b : Ref sig .tc) → Buf (Elt F) ((c : Thread nD τ).loc b)) :
    (Pipeline.arrBufs spec1 c W : sProp 𝕄)
      = iprop((((c : Thread nD τ).loc main_v7) ↦{fullShare} W main_v7) ∗ (((c : Thread nD τ).loc main_v4) ↦{fullShare} W main_v4)
          ∗ (((c : Thread nD τ).loc main_v5) ↦{fullShare} W main_v5) ∗ (((c : Thread nD τ).loc main_v8) ↦{fullShare} W main_v8)) :=
  bigSep_eq_bigSepL_of_eq [main_v7, main_v4, main_v5, main_v8] (by decide) (by decide) _

/-- The six windows' arrays, one by one, each whole at its share. -/
theorem arrays_chain (c : Dev nD) (G : (w : Fin cfg1.W) → Buf (Elt F) ((cfg1.win w).arr.view.loc (c : Thread nD τ))) :
    (dat V c).arrays G
      = iprop(((cfg1.win 0).arr.view.loc (c : Thread nD τ) ↦{fullShare.left} G 0)
          ∗ ((cfg1.win 1).arr.view.loc (c : Thread nD τ) ↦{fullShare.right.left} G 1)
          ∗ ((cfg1.win 2).arr.view.loc (c : Thread nD τ) ↦{fullShare.right.right} G 2)
          ∗ ((cfg1.win 3).arr.view.loc (c : Thread nD τ) ↦{fullShare} G 3)
          ∗ ((cfg1.win 4).arr.view.loc (c : Thread nD τ) ↦{fullShare} G 4)
          ∗ ((cfg1.win 5).arr.view.loc (c : Thread nD τ) ↦{fullShare} G 5)) := by
  unfold Dat.arrays
  rw [bigSep_W1, (arr_whole1 0).set_eq_univ, (arr_whole1 3).set_eq_univ, (arr_whole1 4).set_eq_univ, (arr_whole1 5).set_eq_univ]
  rfl

/-- Entry: the four buffers, each whole at the full share, are the six windows' arrays at the same contents. -/
theorem arrays_of_arrBufs (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs spec1 c W : sProp 𝕄) ⊢ (dat V c).arrays G := by
  rw [arrBufs_chain, arrays_chain, hG 0, hG 1, hG 2, hG 3, hG 4, hG 5]
  iintro ⟨H7, H4, H5, H8⟩
  ihave H7 := (pointsTo_share (PosShare.mem_left_op_right fullShare)).1 $$ H7
  icases H7 with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  isplitl [H4]; · iexact H4
  isplitl [H5]; · iexact H5
  iexact H8

/-- Exit: the six windows' arrays, the three parts of the shared one at one and the same contents, are the four
    buffers whole at the full share. -/
theorem arrBufs_of_arrays (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (dat V c).arrays G ⊢ (Pipeline.arrBufs spec1 c W : sProp 𝕄) := by
  rw [arrBufs_chain, arrays_chain, hG 0, hG 1, hG 2, hG 3, hG 4, hG 5]
  iintro ⟨Hl, Hrl, Hrr, H4, H5, H8⟩
  ihave Hr := (pointsTo_share (PosShare.mem_left_op_right fullShare.right)).2 $$ [Hrl Hrr]
  · isplitl [Hrl]; · iexact Hrl
    iexact Hrr
  ihave H7 := (pointsTo_share (PosShare.mem_left_op_right fullShare)).2 $$ [Hl Hr]
  · isplitl [Hl]; · iexact Hl
    iexact Hr
  isplitl [H7]; · iexact H7
  isplitl [H4]; · iexact H4
  isplitl [H5]; · iexact H5
  iexact H8

/-- ENTRY: a core's unscoped buffers at contents `W` are the region's arrays at the proof data's entry contents and
    the unscoped rest. -/
theorem arrays_of_unscopedBufs (c : Dev nD) :
    (unscopedBufs c (V c) : sProp 𝕄) ⊢ iprop((dat V c).arrays ((dat V c).arrAt · 0) ∗ Pipeline.unscopedRest spec1 c (V c)) := by
  rw [Pipeline.unscopedBufs_split₀ cfgs 1 winFacts₀1.arr_unscoped c (V c)]
  exact sep_mono (arrays_of_arrBufs V c (V c) _ fun w => rfl) .rfl

/-- EXIT: the region's arrays at contents `G`, read off `W'`, and the unscoped rest at `V`, which `W'` agrees with
    off the arrays, are the core's unscoped buffers at `W'`. -/
theorem unscopedBufs_of_arrays (c : Dev nD) (W' : (b : Ref sig .tc) → Buf (Elt F) ((c : Thread nD τ).loc b))
    (G : (w : Fin cfg1.W) → Buf (Elt F) ((cfg1.win w).arr.view.loc (c : Thread nD τ))) (hG : ∀ w, G w = W' (Pipeline.arrRef spec1 w))
    (hrest : ∀ b, b ∉ Finset.univ.image (Pipeline.arrRef spec1) → W' b = V c b) :
    iprop((dat V c).arrays G ∗ Pipeline.unscopedRest spec1 c (V c)) ⊢ (unscopedBufs c W' : sProp 𝕄) := by
  rw [Pipeline.unscopedBufs_split₀ cfgs 1 winFacts₀1.arr_unscoped c W']
  refine sep_mono (arrBufs_of_arrays V c W' G hG) (Entails.of_eq ?_)
  unfold Pipeline.unscopedRest
  exact bigSep_congr fun b hb => by rw [hrest b (Finset.mem_sdiff.mp hb).2]

end Cert.Kernel.Attn

end
-- ==== Proof.BitsWholeRun.lean ====
/-
  The whole program as four segments: the host's six layout operations (the activations flattened to
  [16384, 1024], both weight matrices transposed, the bias as a row), the projection region, the host's one
  reshape of the projections to [8, 2048, 3072], the attention region. Between segments the core holds every
  unscoped buffer whole at a known valuation: the launch memory, then each host stretch applied, then each
  region's arrays at what its write-backs leave (an input array as entered, the output array at the fold of the
  flushed blocks). Every weakly fair execution terminates and the final memory holds, at every unscoped buffer,
  the last valuation's contents — in particular each argument as launched, and the result at what the attention
  region leaves in it.
-/
import proofs.«149828_j84628035600548_2_alg».proof.Proof.BitsProjRegion
import proofs.«149828_j84628035600548_2_alg».proof.Proof.BitsAttnArrays
import proofs.«149828_j84628035600548_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem proj_final (c : Dev nD) (w : Fin cfg0.W) : (Proj.dat (V1 m ρ) c).arrAt w cfg0.N = V2 m ρ c (Pipeline.arrRef spec0 w) :=
  (W2_arr m ρ c w).symm
theorem proj_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: the result array at what the pipeline leaves; every other buffer — the region's
    five input windows' arrays among them — as entered. -/
def W4 (c : Dev nD) : Valuation τ sig (Elt F) :=
  Function.update (W3 m ρ c) (Proc.devRef .tc main_v8) ((Attn.dat (V3 m ρ) c).arrAt 5 cfg1.N)
theorem W4_result (c : Dev nD) : W4 m ρ c (Proc.devRef .tc main_v8) = (Attn.dat (V3 m ρ) c).arrAt 5 cfg1.N := by
  unfold W4; exact Function.update_self _ _ _
theorem W4_of_ne (c : Dev nD) (b : Ref sig .tc) (hb : b ≠ main_v8) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
/-- Each of the attention region's arrays ends at the last valuation's contents: an input window's array is never
    written; the result's is the fold of the flushed blocks. -/
theorem attn_final (c : Dev nD) : ∀ w : Fin cfg1.W, (Attn.dat (V3 m ρ) c).arrAt w cfg1.N = V4 m ρ c (Pipeline.arrRef spec1 w)
  | ⟨0, _⟩ => ((Attn.dat (V3 m ρ) c).arrAt_in 0 rfl _).trans ((Attn.dat_A (V3 m ρ) c 0).trans (W4_of_ne m ρ c main_v7 (by decide)).symm)
  | ⟨1, _⟩ => ((Attn.dat (V3 m ρ) c).arrAt_in 1 rfl _).trans ((Attn.dat_A (V3 m ρ) c 1).trans (W4_of_ne m ρ c main_v7 (by decide)).symm)
  | ⟨2, _⟩ => ((Attn.dat (V3 m ρ) c).arrAt_in 2 rfl _).trans ((Attn.dat_A (V3 m ρ) c 2).trans (W4_of_ne m ρ c main_v7 (by decide)).symm)
  | ⟨3, _⟩ => ((Attn.dat (V3 m ρ) c).arrAt_in 3 rfl _).trans ((Attn.dat_A (V3 m ρ) c 3).trans (W4_of_ne m ρ c main_v4 (by decide)).symm)
  | ⟨4, _⟩ => ((Attn.dat (V3 m ρ) c).arrAt_in 4 rfl _).trans ((Attn.dat_A (V3 m ρ) c 4).trans (W4_of_ne m ρ c main_v5 (by decide)).symm)
  | ⟨5, _⟩ => (W4_result m ρ c).symm
theorem attn_rest (c : Dev nD) : ∀ b, b ∉ Finset.univ.image (Pipeline.arrRef spec1) → V4 m ρ c b = V3 m ρ c b :=
  fun b hb => W4_of_ne m ρ c b fun e => hb (Finset.mem_image.mpr ⟨5, Finset.mem_univ _, e.symm⟩)

/-! ## The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- A buffer that no host stretch writes, that is no array of the projection region and is not the result, holds at
    the end what it held at launch. -/
theorem W4_kept (c : Dev nD) (r : Ref sig .tc) (h8 : r ≠ main_v8) (h1 : r ∉ hostOps1_W) (h0 : ∀ w, Pipeline.arrRef spec0 w ≠ r)
    (hh : r ∉ hostOps0_W) : W4 m ρ c (Proc.devRef .tc r) = m ((c : Thread nD τ).loc r) :=
  (W4_of_ne m ρ c r h8).trans <| (W3_of m ρ c r h1).trans <| (W2_of_ne m ρ c r h0).trans <| (W1_of m ρ c r hh).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at
    some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. Its
    arrays split out of the unscoped buffers and put back at the exit contents; the generator register into the
    region's invariant and out; nothing owed; no semaphore of the kernel's own. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (proj_final m ρ c) (proj_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. Its
    arrays split out of the unscoped buffers — the shared one in three parts — and put back at the exit contents. -/
def attnSeg : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Attn.arrays_of_unscopedBufs (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Attn.unscopedBufs_of_arrays (V3 m ρ) c (V4 m ρ c) ((Attn.dat (V3 m ρ) c).arrAt · cfg1.N) (attn_final m ρ c) (attn_rest m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (projSeg m ρ),
    .host (hseg hostOps1 hostOps1_sub hostOps1_fresh (W2 m ρ)),
    .region (attnSeg m ρ) ]
/-- The program is the run of the segments. -/
theorem main_run (c : Dev nD) : main (F := F) c = Pipeline.Seg.run (segs m ρ) := (main_chain c).trans (by chain_rfl)

set_option backward.isDefEq.respectTransparency.types false in
/-- THE RUN, at any `F`: from any memory with zero counters, every weakly fair execution of the program terminates,
    nothing faulting, and every final state holds each unscoped buffer at the last valuation's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Whole

end
-- ==== Proof.ProjRegion.lean ====
/-
  The projection region: on a grid of 32 points, point t reads rows 512·t … 512·t + 511 of the
  [16384, 1024] activations and the whole [1024, 3072] weight matrix, and writes the same rows of the
  [16384, 3072] product. The body loads the two blocks whole and stores one whole block: what it
  leaves in the output's staging buffer is a function (the store's payload) of the two input
  blocks. Here: that function, the body's triple, and the pipeline's proof data over it, at any
  contents `V` the region is entered with; the invariant is the untouched rest of the core.
-/
import proofs.«149828_j84628035600548_2_alg».proof.Proof.Gen.KernelIdeal.Launch
import proofs.«149828_j84628035600548_2_alg».proof.Proof.Gen.KernelIdeal.Skeleton
import proofs.«149828_j84628035600548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not
    (unfetched, the block index has not moved), for any proof data over `V` whose body leaves the block in place. -/
theorem rows_found_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem weights_found_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The body's three accesses: each the whole buffer. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rO : Rect S512x3072 := Rect.unit (s := S512x3072) ![0, 0] S512x3072.size inb_S512x3072_S512x3072_0_0

/-- What the body leaves in the output's staging buffer, from the two input blocks: its one store. -/
def product (x : Vec F S512x1024 .f32) (w : Vec F S1024x3072 .bf16) : Vec F S512x3072 .bf16 :=
  View.canon [⟨rO, k0_pay1 (View.ld x rX) (View.ld w rW)⟩]

/-- The one store covers the buffer. -/
theorem store_covers (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

set_option maxHeartbeats 1000000 in
/-- The body on whole staging memrefs, the inputs' at contents `x`, `w` and the output's at anything, runs to the
    continuation holding the inputs' as they were and the output's at `product x w`. -/
theorem body_triple (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S512x3072 .bf16) (harg3 : arg3.IsWhole)
    (x : Vec F S512x1024 .f32) (w : Vec F S1024x3072 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (product x w)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-- The proof data of the projection pipeline on core `c`: the arrays as the region finds them; after the body at
    point `t` each input's buffer at its block and the output's at `product` of the two blocks; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_out (c : Dev nD) (t : Fin cfg0.N) : (dat V c).after 2 t = product (blockAt V c 0 t) (blockAt V c 1 t) := by dsimp only [dat]

theorem rows_found (c : Dev nD) (t : Fin cfg0.N) (d) : (dat V c).before 0 t d = blockAt V c 0 t :=
  rows_found_of V (dat V c) (dat_A V c 0) (after_rows V c) t d
theorem weights_found (c : Dev nD) (t : Fin cfg0.N) (d) : (dat V c).before 1 t d = blockAt V c 1 t :=
  weights_found_of V (dat V c) (dat_A V c 1) (after_weights V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [rows_found, weights_found]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact body_at V c t

end Cert.KernelIdeal.Proj

end
-- ==== Proof.AttnRegion.lean ====
/-
  The attention region: on a grid of 8 × 8 points, point (b, i) reads of the [8, 2048, 3072] projections the
  rows 256·i … 256·i + 255 of batch b in columns 0 … 1023 (the queries), all 2048 rows of batch b in
  columns 1024 … 2047 (the keys) and in columns 2048 … 3071 (the values) — three windows on ONE array —,
  the whole [1024, 1024] output weights and the [1, 1024] bias, and writes rows 256·i … 256·i + 255 of batch b
  of the [8, 2048, 1024] result. The body loads the five blocks whole and stores one whole block: what it leaves
  in the output's staging buffer is a function (the store's payload) of the five input blocks. Here: that
  function, the body's triple, and the pipeline's proof data over it, at any contents `V` the region is
  entered with. The array the three windows share is held in three parts of the full share, one per window.
-/
import proofs.«149828_j84628035600548_2_alg».proof.Proof.Gen.KernelIdeal.Launch
import proofs.«149828_j84628035600548_2_alg».proof.Proof.Gen.KernelIdeal.Skeleton
import proofs.«149828_j84628035600548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not
    (unfetched, the block index has not moved), for any proof data over `V` whose body leaves the block in place:
    one statement per input window. -/
theorem q_found_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem k_found_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem v_found_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem wo_found_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem b_found_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The body's accesses: each the whole buffer. -/
abbrev rQ : Rect S1x256x1024 := Rect.unit (s := S1x256x1024) ![0, 0, 0] S1x256x1024.size inb_S1x256x1024_S1x256x1024_0_0_0
abbrev rKV : Rect S1x2048x1024 := Rect.unit (s := S1x2048x1024) ![0, 0, 0] S1x2048x1024.size inb_S1x2048x1024_S1x2048x1024_0_0_0
abbrev rWo : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What the body leaves in the output's staging buffer, from the five input blocks: its one store. -/
def attended (q : Vec F S1x256x1024 .bf16) (k v : Vec F S1x2048x1024 .bf16) (wo : Vec F S1024x1024 .bf16) (b : Vec F S1x1024 .f32) :
    Vec F S1x256x1024 .f32 :=
  View.canon [⟨rQ, k1_pay1 (View.ld q rQ) (View.ld k rKV) (View.ld v rKV) (View.ld wo rWo) (View.ld b rB)⟩]

/-- The one store covers the buffer. -/
theorem store_covers (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

set_option maxHeartbeats 1000000 in
/-- The body on whole staging memrefs, the inputs' at given contents and the output's at anything, runs to the
    continuation holding the inputs' as they were and the output's at `attended` of them. -/
theorem body_triple (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x256x1024 .f32) (harg7 : arg7.IsWhole)
    (q : Vec F S1x256x1024 .bf16) (k v : Vec F S1x2048x1024 .bf16) (wo : Vec F S1024x1024 .bf16) (b : Vec F S1x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare wo ∗ owns (c : Thread nD τ) arg6 fullShare b ∗ (∃ d, owns (c : Thread nD τ) arg7 fullShare d)
        ∗ (iprop(owns (c : Thread nD τ) arg2 fullShare q ∗ owns (c : Thread nD τ) arg3 fullShare k ∗ owns (c : Thread nD τ) arg4 fullShare v
            ∗ owns (c : Thread nD τ) arg5 fullShare wo ∗ owns (c : Thread nD τ) arg6 fullShare b
            ∗ owns (c : Thread nD τ) arg7 fullShare (attended q k v wo b)) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2
  subst hf3
  subst hf4
  subst hf5
  subst hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-- The proof data of the attention pipeline on core `c`: the arrays as the region finds them; after the body at
    point `t` each input's buffer at its block and the output's at `attended` of the five blocks; nothing owed; the
    shared array in three parts, the other arrays whole. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => attended (blockAt V c 0 t) (blockAt V c 1 t) (blockAt V c 2 t) (blockAt V c 3 t) (blockAt V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem dat_A (c : Dev nD) (w : Fin cfg1.W) : (dat V c).A w = V c (Pipeline.arrRef spec1 w) := by
  dsimp only [dat]

theorem after_q (c : Dev nD) (t : Fin cfg1.N) : (dat V c).after 0 t = blockAt V c 0 t := by dsimp only [dat]
theorem after_k (c : Dev nD) (t : Fin cfg1.N) : (dat V c).after 1 t = blockAt V c 1 t := by dsimp only [dat]
theorem after_v (c : Dev nD) (t : Fin cfg1.N) : (dat V c).after 2 t = blockAt V c 2 t := by dsimp only [dat]
theorem after_wo (c : Dev nD) (t : Fin cfg1.N) : (dat V c).after 3 t = blockAt V c 3 t := by dsimp only [dat]
theorem after_b (c : Dev nD) (t : Fin cfg1.N) : (dat V c).after 4 t = blockAt V c 4 t := by dsimp only [dat]
theorem after_out (c : Dev nD) (t : Fin cfg1.N) :
    (dat V c).after 5 t = attended (blockAt V c 0 t) (blockAt V c 1 t) (blockAt V c 2 t) (blockAt V c 3 t) (blockAt V c 4 t) := by dsimp only [dat]

theorem q_found (c : Dev nD) (t : Fin cfg1.N) (d) : (dat V c).before 0 t d = blockAt V c 0 t :=
  q_found_of V (dat V c) (dat_A V c 0) (after_q V c) t d
theorem k_found (c : Dev nD) (t : Fin cfg1.N) (d) : (dat V c).before 1 t d = blockAt V c 1 t :=
  k_found_of V (dat V c) (dat_A V c 1) (after_k V c) t d
theorem v_found (c : Dev nD) (t : Fin cfg1.N) (d) : (dat V c).before 2 t d = blockAt V c 2 t :=
  v_found_of V (dat V c) (dat_A V c 2) (after_v V c) t d
theorem wo_found (c : Dev nD) (t : Fin cfg1.N) (d) : (dat V c).before 3 t d = blockAt V c 3 t :=
  wo_found_of V (dat V c) (dat_A V c 3) (after_wo V c) t d
theorem b_found (c : Dev nD) (t : Fin cfg1.N) (d) : (dat V c).before 4 t d = blockAt V c 4 t :=
  b_found_of V (dat V c) (dat_A V c 4) (after_b V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [q_found, k_found, v_found, wo_found, b_found]
  rw [show (dat V c).Φ t.succ = (dat V c).Φ t.castSucc from rfl,
    show (dat V c).owesAt () t.succ = (dat V c).owesAt () t.castSucc from rfl,
    after_q, after_k, after_v, after_wo, after_b, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact body_at V c t

end Cert.KernelIdeal.Attn

end
-- ==== Proof.AttnArrays.lean ====
/-
  The attention region's arrays. Its six windows sit on four buffers: the projections (three windows: queries,
  keys, values), the output weights, the bias, the result. The pipeline holds each window's array at a share;
  the three windows on the projections hold it at the left half, the left half of the right half and the right
  half of the right half of the full share, which together are the full share. Here: the core's unscoped
  buffers at entry split into the six windows' arrays and the rest, and at exit the six windows' arrays — the
  three parts holding one and the same contents — and the rest make the core's unscoped buffers again.
-/
import proofs.«149828_j84628035600548_2_alg».proof.Proof.AttnRegion

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind the six windows, one by one. -/
theorem arrBufs_chain (c : Dev nD) (W : (b : Ref sig .tc) → Buf (Elt F) ((c : Thread nD τ).loc b)) :
    (Pipeline.arrBufs spec1 c W : sProp 𝕄)
      = iprop((((c : Thread nD τ).loc main_v7) ↦{fullShare} W main_v7) ∗ (((c : Thread nD τ).loc main_v4) ↦{fullShare} W main_v4)
          ∗ (((c : Thread nD τ).loc main_v5) ↦{fullShare} W main_v5) ∗ (((c : Thread nD τ).loc main_v8) ↦{fullShare} W main_v8)) :=
  bigSep_eq_bigSepL_of_eq [main_v7, main_v4, main_v5, main_v8] (by decide) (by decide) _

/-- The six windows' arrays, one by one, each whole at its share. -/
theorem arrays_chain (c : Dev nD) (G : (w : Fin cfg1.W) → Buf (Elt F) ((cfg1.win w).arr.view.loc (c : Thread nD τ))) :
    (dat V c).arrays G
      = iprop(((cfg1.win 0).arr.view.loc (c : Thread nD τ) ↦{fullShare.left} G 0)
          ∗ ((cfg1.win 1).arr.view.loc (c : Thread nD τ) ↦{fullShare.right.left} G 1)
          ∗ ((cfg1.win 2).arr.view.loc (c : Thread nD τ) ↦{fullShare.right.right} G 2)
          ∗ ((cfg1.win 3).arr.view.loc (c : Thread nD τ) ↦{fullShare} G 3)
          ∗ ((cfg1.win 4).arr.view.loc (c : Thread nD τ) ↦{fullShare} G 4)
          ∗ ((cfg1.win 5).arr.view.loc (c : Thread nD τ) ↦{fullShare} G 5)) := by
  unfold Dat.arrays
  rw [bigSep_W1, (arr_whole1 0).set_eq_univ, (arr_whole1 3).set_eq_univ, (arr_whole1 4).set_eq_univ, (arr_whole1 5).set_eq_univ]
  rfl

/-- Entry: the four buffers, each whole at the full share, are the six windows' arrays at the same contents. -/
theorem arrays_of_arrBufs (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs spec1 c W : sProp 𝕄) ⊢ (dat V c).arrays G := by
  rw [arrBufs_chain, arrays_chain, hG 0, hG 1, hG 2, hG 3, hG 4, hG 5]
  iintro ⟨H7, H4, H5, H8⟩
  ihave H7 := (pointsTo_share (PosShare.mem_left_op_right fullShare)).1 $$ H7
  icases H7 with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  isplitl [H4]; · iexact H4
  isplitl [H5]; · iexact H5
  iexact H8

/-- Exit: the six windows' arrays, the three parts of the shared one at one and the same contents, are the four
    buffers whole at the full share. -/
theorem arrBufs_of_arrays (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (dat V c).arrays G ⊢ (Pipeline.arrBufs spec1 c W : sProp 𝕄) := by
  rw [arrBufs_chain, arrays_chain, hG 0, hG 1, hG 2, hG 3, hG 4, hG 5]
  iintro ⟨Hl, Hrl, Hrr, H4, H5, H8⟩
  ihave Hr := (pointsTo_share (PosShare.mem_left_op_right fullShare.right)).2 $$ [Hrl Hrr]
  · isplitl [Hrl]; · iexact Hrl
    iexact Hrr
  ihave H7 := (pointsTo_share (PosShare.mem_left_op_right fullShare)).2 $$ [Hl Hr]
  · isplitl [Hl]; · iexact Hl
    iexact Hr
  isplitl [H7]; · iexact H7
  isplitl [H4]; · iexact H4
  isplitl [H5]; · iexact H5
  iexact H8

/-- ENTRY: a core's unscoped buffers at contents `W` are the region's arrays at the proof data's entry contents and
    the unscoped rest. -/
theorem arrays_of_unscopedBufs (c : Dev nD) :
    (unscopedBufs c (V c) : sProp 𝕄) ⊢ iprop((dat V c).arrays ((dat V c).arrAt · 0) ∗ Pipeline.unscopedRest spec1 c (V c)) := by
  rw [Pipeline.unscopedBufs_split₀ cfgs 1 winFacts₀1.arr_unscoped c (V c)]
  exact sep_mono (arrays_of_arrBufs V c (V c) _ fun w => rfl) .rfl

/-- EXIT: the region's arrays at contents `G`, read off `W'`, and the unscoped rest at `V`, which `W'` agrees with
    off the arrays, are the core's unscoped buffers at `W'`. -/
theorem unscopedBufs_of_arrays (c : Dev nD) (W' : (b : Ref sig .tc) → Buf (Elt F) ((c : Thread nD τ).loc b))
    (G : (w : Fin cfg1.W) → Buf (Elt F) ((cfg1.win w).arr.view.loc (c : Thread nD τ))) (hG : ∀ w, G w = W' (Pipeline.arrRef spec1 w))
    (hrest : ∀ b, b ∉ Finset.univ.image (Pipeline.arrRef spec1) → W' b = V c b) :
    iprop((dat V c).arrays G ∗ Pipeline.unscopedRest spec1 c (V c)) ⊢ (unscopedBufs c W' : sProp 𝕄) := by
  rw [Pipeline.unscopedBufs_split₀ cfgs 1 winFacts₀1.arr_unscoped c W']
  refine sep_mono (arrBufs_of_arrays V c W' G hG) (Entails.of_eq ?_)
  unfold Pipeline.unscopedRest
  exact bigSep_congr fun b hb => by rw [hrest b (Finset.mem_sdiff.mp hb).2]

end Cert.KernelIdeal.Attn

end
-- ==== Proof.WholeRun.lean ====
/-
  The whole program as four segments: the host's six layout operations (the activations flattened to
  [16384, 1024], both weight matrices transposed, the bias as a row), the projection region, the host's one
  reshape of the projections to [8, 2048, 3072], the attention region. Between segments the core holds every
  unscoped buffer whole at a known valuation: the launch memory, then each host stretch applied, then each
  region's arrays at what its write-backs leave (an input array as entered, the output array at the fold of the
  flushed blocks). Every weakly fair execution terminates and the final memory holds, at every unscoped buffer,
  the last valuation's contents — in particular each argument as launched, and the result at what the attention
  region leaves in it.
-/
import proofs.«149828_j84628035600548_2_alg».proof.Proof.ProjRegion
import proofs.«149828_j84628035600548_2_alg».proof.Proof.AttnArrays
import proofs.«149828_j84628035600548_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem proj_final (c : Dev nD) (w : Fin cfg0.W) : (Proj.dat (V1 m ρ) c).arrAt w cfg0.N = V2 m ρ c (Pipeline.arrRef spec0 w) :=
  (W2_arr m ρ c w).symm
theorem proj_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: the result array at what the pipeline leaves; every other buffer — the region's
    five input windows' arrays among them — as entered. -/
def W4 (c : Dev nD) : Valuation τ sig (Elt F) :=
  Function.update (W3 m ρ c) (Proc.devRef .tc main_v8) ((Attn.dat (V3 m ρ) c).arrAt 5 cfg1.N)
theorem W4_result (c : Dev nD) : W4 m ρ c (Proc.devRef .tc main_v8) = (Attn.dat (V3 m ρ) c).arrAt 5 cfg1.N := by
  unfold W4; exact Function.update_self _ _ _
theorem W4_of_ne (c : Dev nD) (b : Ref sig .tc) (hb : b ≠ main_v8) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
/-- Each of the attention region's arrays ends at the last valuation's contents: an input window's array is never
    written; the result's is the fold of the flushed blocks. -/
theorem attn_final (c : Dev nD) : ∀ w : Fin cfg1.W, (Attn.dat (V3 m ρ) c).arrAt w cfg1.N = V4 m ρ c (Pipeline.arrRef spec1 w)
  | ⟨0, _⟩ => ((Attn.dat (V3 m ρ) c).arrAt_in 0 rfl _).trans ((Attn.dat_A (V3 m ρ) c 0).trans (W4_of_ne m ρ c main_v7 (by decide)).symm)
  | ⟨1, _⟩ => ((Attn.dat (V3 m ρ) c).arrAt_in 1 rfl _).trans ((Attn.dat_A (V3 m ρ) c 1).trans (W4_of_ne m ρ c main_v7 (by decide)).symm)
  | ⟨2, _⟩ => ((Attn.dat (V3 m ρ) c).arrAt_in 2 rfl _).trans ((Attn.dat_A (V3 m ρ) c 2).trans (W4_of_ne m ρ c main_v7 (by decide)).symm)
  | ⟨3, _⟩ => ((Attn.dat (V3 m ρ) c).arrAt_in 3 rfl _).trans ((Attn.dat_A (V3 m ρ) c 3).trans (W4_of_ne m ρ c main_v4 (by decide)).symm)
  | ⟨4, _⟩ => ((Attn.dat (V3 m ρ) c).arrAt_in 4 rfl _).trans ((Attn.dat_A (V3 m ρ) c 4).trans (W4_of_ne m ρ c main_v5 (by decide)).symm)
  | ⟨5, _⟩ => (W4_result m ρ c).symm
theorem attn_rest (c : Dev nD) : ∀ b, b ∉ Finset.univ.image (Pipeline.arrRef spec1) → V4 m ρ c b = V3 m ρ c b :=
  fun b hb => W4_of_ne m ρ c b fun e => hb (Finset.mem_image.mpr ⟨5, Finset.mem_univ _, e.symm⟩)

/-! ## The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- A buffer that no host stretch writes, that is no array of the projection region and is not the result, holds at
    the end what it held at launch. -/
theorem W4_kept (c : Dev nD) (r : Ref sig .tc) (h8 : r ≠ main_v8) (h1 : r ∉ hostOps1_W) (h0 : ∀ w, Pipeline.arrRef spec0 w ≠ r)
    (hh : r ∉ hostOps0_W) : W4 m ρ c (Proc.devRef .tc r) = m ((c : Thread nD τ).loc r) :=
  (W4_of_ne m ρ c r h8).trans <| (W3_of m ρ c r h1).trans <| (W2_of_ne m ρ c r h0).trans <| (W1_of m ρ c r hh).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at
    some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. Its
    arrays split out of the unscoped buffers and put back at the exit contents; the generator register into the
    region's invariant and out; nothing owed; no semaphore of the kernel's own. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (proj_final m ρ c) (proj_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. Its
    arrays split out of the unscoped buffers — the shared one in three parts — and put back at the exit contents. -/
def attnSeg : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Attn.arrays_of_unscopedBufs (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Attn.unscopedBufs_of_arrays (V3 m ρ) c (V4 m ρ c) ((Attn.dat (V3 m ρ) c).arrAt · cfg1.N) (attn_final m ρ c) (attn_rest m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (projSeg m ρ),
    .host (hseg hostOps1 hostOps1_sub hostOps1_fresh (W2 m ρ)),
    .region (attnSeg m ρ) ]
/-- The program is the run of the segments. -/
theorem main_run (c : Dev nD) : main (F := F) c = Pipeline.Seg.run (segs m ρ) := (main_chain c).trans (by chain_rfl)

set_option backward.isDefEq.respectTransparency.types false in
/-- THE RUN, at any `F`: from any memory with zero counters, every weakly fair execution of the program terminates,
    nothing faulting, and every final state holds each unscoped buffer at the last valuation's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.HostStretches.lean ====
/-
  What the two regions find in their arrays, as terms of the launch memory. The first host stretch leaves the
  activations flattened to [16384, 1024], each weight matrix transposed (the change of float format is the
  identity on extended reals) and the bias as a [1, 1024] row; the projection region changes only its result
  array; the second host stretch reshapes that result to [8, 2048, 3072] and touches nothing else, so the
  attention region finds the transposed output weights and the bias row as the first stretch left them.
-/
import proofs.«149828_j84628035600548_2_alg».proof.Proof.WholeRun
import Idealize.ShloMosaic.Lib.StableHlo.Run
import Idealize.ShloMosaic.PureOps.Ideal
import Idealize.ShloMosaic.Lib.Pipeline.Value

set_option maxRecDepth 16384

noncomputable section

namespace Cert.KernelIdeal.Whole

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The projection region finds the activations flattened, -/
theorem entry_x (c : Dev nD) : (V1 m ρ c main_v0 : S16384x1024.Idx → EReal)
    = shapeCast S16384x1024 (m ((c : Thread nD τ).loc main_arg0)) shapeCasts_S8x2048x1024_S16384x1024 := by
  show StableHlo.after hostOps0 (W0 m ρ c) (Proc.devRef .tc main_v0) = _
  after_results
  rfl

/-- and the projection weights transposed. -/
theorem entry_wqkv (c : Dev nD) : (V1 m ρ c main_v2 : S1024x3072.Idx → EReal)
    = truncf (F := Ideal) .bf16 (transpose S1024x3072 [1, 0] (m ((c : Thread nD τ).loc main_arg1) : FVec Ideal S3072x1024 .f32) transposes_S3072x1024_S1024x3072_1_0) bitsLt_bf16_f32 := by
  show StableHlo.after hostOps0 (W0 m ρ c) (Proc.devRef .tc main_v2) = _
  after_results

/-- The first stretch leaves the output weights transposed -/
theorem first_wout (c : Dev nD) : (V1 m ρ c main_v4 : S1024x1024.Idx → EReal)
    = truncf (F := Ideal) .bf16 (transpose S1024x1024 [1, 0] (m ((c : Thread nD τ).loc main_arg2) : FVec Ideal S1024x1024 .f32) transposes_S1024x1024_S1024x1024_1_0) bitsLt_bf16_f32 := by
  show StableHlo.after hostOps0 (W0 m ρ c) (Proc.devRef .tc main_v4) = _
  after_results

/-- and the bias as a row. -/
theorem first_bias (c : Dev nD) : (V1 m ρ c main_v5 : S1x1024.Idx → EReal)
    = shapeCast S1x1024 (m ((c : Thread nD τ).loc main_arg3)) shapeCasts_S1024_S1x1024 := by
  show StableHlo.after hostOps0 (W0 m ρ c) (Proc.devRef .tc main_v5) = _
  after_results
  rfl

/-- The attention region finds the projection region's result reshaped, -/
theorem entry_qkv (c : Dev nD) : (V3 m ρ c main_v7 : S8x2048x3072.Idx → EReal)
    = shapeCast S8x2048x3072 (V2 m ρ c main_v6) shapeCasts_S16384x3072_S8x2048x3072 := by
  show StableHlo.after hostOps1 (W2 m ρ c) (Proc.devRef .tc main_v7) = _
  after_results
  rfl

/-- and the output weights and the bias row as the first stretch left them: the second stretch writes neither, and
    neither is an array of the projection region. -/
theorem entry_wout (c : Dev nD) : V3 m ρ c main_v4 = V1 m ρ c main_v4 :=
  (W3_of m ρ c main_v4 (by decide)).trans (W2_of_ne m ρ c main_v4 (by decide))
theorem entry_bias (c : Dev nD) : V3 m ρ c main_v5 = V1 m ρ c main_v5 :=
  (W3_of m ρ c main_v5 (by decide)).trans (W2_of_ne m ρ c main_v5 (by decide))

end Cert.KernelIdeal.Whole

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.PayProj.lean ====
/- The projection body at an entry: the block of the input rows times the resident transposed weight, into the zero
   accumulator, is at (p, e) the sum over the model coordinate k of x(p, k) · w(k, e).  The changes of float format
   and the casts of a shape to itself are the identity on the extended reals. -/
import proofs.«149828_j84628035600548_2_alg».proof.Proof.Gen.KernelIdeal.Skeleton
import proofs.«149828_j84628035600548_2_alg».proof.Proof.LibPlainMatmul
import Idealize.ShloMosaic.Lib.ValueIdx
import Idealize.ShloMosaic.Lib.Pipeline.Value
import Idealize.ShloMosaic.PureOps.Ideal.Laws

noncomputable section

open scoped BigOperators

open Idealize.ShloMosaic Idealize.ShloMosaic.ValueIdx
open Cert.KernelIdeal Cert.KernelIdeal.Gen

namespace Cert.KernelIdeal.Pay

/-- The projection payload at (p, e): the sum over k of the input block at (p, k) times the weight at (k, e). -/
theorem pay_proj_apply (x0 : Vec Ideal S512x1024 .f32) (w : Vec Ideal S1024x3072 .bf16) (p : Fin 512) (e : Fin 3072) :
    k0_pay1 (F := Ideal) x0 w (ix2 p e) = ∑ k : Fin 1024, x0 (ix2 p k) * w (ix2 k e) := by
  unfold k0_pay1
  refine (Cert.Lib.PlainMatmul.plain_matmul_zero_apply (M := 512) (K := 1024) (N := 3072)
    (truncf .bf16 (shapeCast S512x1024 x0 shapeCasts_S512x1024_S512x1024) bitsLt_bf16_f32 : FVec Ideal S512x1024 .bf16)
    (shapeCast S1024x3072 w shapeCasts_S1024x3072_S1024x3072 : FVec Ideal S1024x3072 .bf16) p e).trans ?_
  refine Finset.sum_congr rfl fun k _ => ?_
  rw [shapeCast_self, shapeCast_self]
  rfl

end Cert.KernelIdeal.Pay

end
-- ==== Proof.ProjBlocks.lean ====
/-
  The projection region's result as one function of its two arrays. Point t of the 32 writes back rows
  512·t … 512·t + 511 of the product: entry (r, e) of the [16384, 3072] result is the sum over k of
  x2[r, k] · wt[k, e], the row r read through the point's block of the activations, the whole weight matrix
  the same block at every point. The 32 blocks tile the result (row r lies in block r / 512), so the array
  ends holding that product everywhere.
-/
import proofs.«149828_j84628035600548_2_alg».proof.Proof.ProjRegion
import proofs.«149828_j84628035600548_2_alg».proof.Proof.PayProj
import Idealize.ShloMosaic.Lib.Pipeline.Value
import Idealize.ShloMosaic.Lib.ValueIdx

set_option maxRecDepth 16384

noncomputable section

namespace Cert.KernelIdeal.Proj

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The [16384, 3072] product of the flattened activations and the transposed weights, entry by entry. -/
def projected (x2 : S16384x1024.Idx → EReal) (wt : S1024x3072.Idx → EReal) : S16384x3072.Idx → EReal :=
  fun i => ∑ k : Fin 1024, x2 (ix2 (i 0) k) * wt (ix2 k (i 1))

theorem zero_off : (![0, 0] : Fin 2 → Nat) = fun _ => 0 := funext fun a => by fin_cases a <;> rfl

/-- The printed index maps, decided over the grid: the activations' block moves with the result's along the rows,
    the weights' block is the whole matrix at every point, and the result's row block index is the point. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the product of the two arrays as the region finds them. -/
theorem flushed_eq (c : Dev nD) (t : Fin cfg0.N) :
    (dat V c).flushed 2 t = ((cfg0.win 2).blk t).view.read (Elt Ideal) (projected (V c main_v0) (V c main_v2)) := by
  show (cfg0.win 2).cut (grid0.coords t) ((dat V c).after 2 t) = _
  rw [after_out]
  unfold product
  rw [View.canon_unit_zero zero_off]
  simp only [View.ld_unit_zero (S := S512x1024) zero_off, View.ld_unit_zero (S := S1024x3072) zero_off]
  obtain ⟨e0, e1, e2, e3, e4, e5⟩ := index_facts t
  funext j
  obtain ⟨p, q, rfl⟩ : ∃ (p : Fin 512) (q : Fin 3072), j = ix2 p q := ⟨j 0, j 1, eq_ix2 j⟩
  have hx : ∀ k : Fin 1024, blockAt V c 0 t (ix2 p k) = V c main_v0 (ix2 ((((cfg0.win 2).blk t).view.emb (ix2 p q)) 0) k) := fun k => by
    show V c main_v0 (((cfg0.win 0).blk t).view.emb (ix2 p k)) = _
    refine congrArg _ (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have hw : ∀ k : Fin 1024, blockAt V c 1 t (ix2 k q) = V c main_v2 (ix2 k ((((cfg0.win 2).blk t).view.emb (ix2 p q)) 1)) := fun k => by
    show V c main_v2 (((cfg0.win 1).blk t).view.emb (ix2 k q)) = _
    refine congrArg _ (funext fun a => Fin.ext ?_)
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega
  refine (Pay.pay_proj_apply (blockAt V c 0 t) (blockAt V c 1 t) p q).trans ?_
  simp only [hx, hw]
  rfl

/-- An index of the result is in point `t`'s block iff each coordinate is in the block's range on its axis. -/
theorem mem_block (t : Fin cfg0.N) (i : S16384x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v6).slice (win0_2.rect t)).set ↔ _
  rw [View.set_slice_whole, Rect.mem_set_unit]
  exact Iff.rfl

/-- Every entry of the result is in some point's block: row r in block r / 512. -/
theorem covered (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  have hN : cfg0.N = 32 := N_0
  let t : Fin cfg0.N := ⟨(i 0).val / 512, by rw [hN]; omega⟩
  obtain ⟨e0, e1, e2, e3, e4, e5⟩ := index_facts t
  have ht : t.val = (i 0).val / 512 := rfl
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- THE RESULT ARRAY after the region: the product of the two arrays as the region finds them. -/
theorem result_final (c : Dev nD) : (dat V c).arrAt 2 cfg0.N = projected (V c main_v0) (V c main_v2) :=
  (dat V c).arrAt_eq_of_cover 2 (projected (V c main_v0) (V c main_v2)) (fun t _ => flushed_eq V c t) covered

end Cert.KernelIdeal.Proj

end
-- ==== Proof.AttnSpec.lean ====
/- One self-attention forward pass, entry by entry, on the extended reals.

   The projection `proj` is a matrix product against the transposed weight: entry (b, n, e) is the sum over the model
   coordinate d of x(b, n, d) · w(e, d).  One query row of the attention, `attnRow`: the score of the row against
   key m is the inner product of the query with key m, times the scale word; the scores go through a softmax along m
   (the exponential of each score minus the row's maximum taken from the bottom, over the sum of all of them); the
   weights average the value rows; the result goes through the output matrix and gets the bias.  Every sum is taken
   in the one order a finite sum over `Fin` has, and no algebraic law is used anywhere: both programs compute these
   same operations in this same order, so they agree on all extended reals, infinities included. -/
import Idealize.ShloMosaic.PureOps.Ideal
import Idealize.ShloMosaic.PureOps.Ideal.Laws
import Idealize.ShloMosaic.Lib.ValueIdx

noncomputable section

open scoped BigOperators

open Idealize.ShloMosaic

namespace Cert.AttnSpec

/-- The fused projection: entry (b, n, e) is the sum over d of x(b, n, d) · w(e, d). -/
def proj (x : Fin 8 → Fin 2048 → Fin 1024 → EReal) (wqkv : Fin 3072 → Fin 1024 → EReal) (b : Fin 8) (n : Fin 2048)
    (e : Fin 3072) : EReal :=
  ∑ d : Fin 1024, x b n d * wqkv e d

/-- The score of a query row against key row m: their inner product times the scale word (the word of 0.125, kept as
    a word: it is the same on both sides and is never evaluated). -/
def score (q : Fin 1024 → EReal) (K : Fin 2048 → Fin 1024 → EReal) (m : Fin 2048) : EReal :=
  (∑ d : Fin 1024, q d * K m d) * (Ideal.ofBits .f32 0x3E000000#32 : EReal)

/-- The softmax of a finite family at c: the exponential of the member shifted by the family's maximum (from the
    bottom), over the sum of all such exponentials. -/
def softmax {B : ℕ} (f : Fin B → EReal) (c : Fin B) : EReal :=
  Ideal.div (Ideal.exp (f c - (Finset.univ : Finset (Fin B)).fold max ⊥ f))
    (∑ c' : Fin B, Ideal.exp (f c' - (Finset.univ : Finset (Fin B)).fold max ⊥ f))

/-- One output entry of one query row: the softmax of the scores weighs the value rows, the average goes through the
    output matrix (indexed by the contraction coordinate d, then the output column e), and the bias is added. -/
def attnRow (q : Fin 1024 → EReal) (K V : Fin 2048 → Fin 1024 → EReal) (Wo : Fin 1024 → Fin 1024 → EReal)
    (bias : Fin 1024 → EReal) (e : Fin 1024) : EReal :=
  (∑ d : Fin 1024, (∑ m : Fin 2048, softmax (score q K) m * V m d) * Wo d e) + bias e

end Cert.AttnSpec

end
-- ==== Proof.LibDotReads.lean ====
/- Contractions and two column layouts read at coordinates, on the extended reals, for any extents.
   A matrix product into the zero accumulator, read at (p, c), is one sum over the contraction coordinate k:
   of left(k, p) · right(c, k) when the left operand is contracted on its first axis and the right on its last;
   of left(p, k) · right(c, k) when both are contracted on their last axis. The host's product with the plain
   dimension numbers (rows × contraction by contraction × columns), which has no accumulator, is the sum of
   left(p, k) · right(k, c). A vector of a entries cast to an [a, 1] column reads its entry i at (i, 0), and a
   [1, 1] value broadcast along a row of b entries reads its one entry everywhere. Nothing here depends on a
   particular program: a printed record with the same axis lists is the record used here by `rfl`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

open Idealize.ShloMosaic Idealize.ShloMosaic.ValueIdx

namespace Cert.Lib.DotReads

/-- The dimension numbers of a [K, M] matrix contracted on its FIRST axis with an [N, K] matrix contracted on its
    LAST axis, giving [M, N]: result (p, c) pairs the left operand's column p with the right operand's row c. -/
def firstLast (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- Left contracted on its first axis, right on its last, into the zero accumulator, at (p, c): the sum over k of
    left(k, p) · right(c, k). -/
theorem firstLast_matmul_zero_apply {M K N : ℕ} {φ₁ φ₂ : FTy} (l : FVec Ideal ⟨2, ![K, M]⟩ φ₁) (r : FVec Ideal ⟨2, ![N, K]⟩ φ₂)
    (p : Fin M) (c : Fin N) :
    FloatOps.matmul (firstLast M K N) none l r (constant (F := Ideal) ⟨2, ![M, N]⟩ .f32 0x00000000#32) (ix2 p c)
      = ∑ k : Fin K, l (ix2 k p) * r (ix2 c k) := by
  rw [Ideal.matmul_constant_zero_apply, ← Equiv.sum_comp (contrEquiv1 (firstLast M K N) K rfl rfl).symm]
  refine Finset.sum_congr rfl fun k _ => ?_
  have hk := contrEquiv1_symm_val (firstLast M K N) K rfl rfl k
  have el : (firstLast M K N).lhsIdx (ix2 p c) ((contrEquiv1 (firstLast M K N) K rfl rfl).symm k) = ix2 k p :=
    funext fun a => Fin.ext (by
      match a with
      | ⟨0, _⟩ => exact ((firstLast M K N).lhsIdx_val_of_single rfl _ _).trans hk
      | ⟨1, _⟩ => rfl)
  have er : (firstLast M K N).rhsIdx (ix2 p c) ((contrEquiv1 (firstLast M K N) K rfl rfl).symm k) = ix2 c k :=
    funext fun a => Fin.ext (by
      match a with
      | ⟨0, _⟩ => rfl
      | ⟨1, _⟩ => exact ((firstLast M K N).rhsIdx_val_of_single rfl _ _).trans hk)
  rw [el, er]

/-- Both operands contracted on their last axis, into the zero accumulator, at (p, c): the sum over k of
    left(p, k) · right(c, k). -/
theorem lastLast_matmul_zero_apply {M K N : ℕ} {φ₁ φ₂ : FTy} (l : FVec Ideal ⟨2, ![M, K]⟩ φ₁) (r : FVec Ideal ⟨2, ![N, K]⟩ φ₂)
    (p : Fin M) (c : Fin N) :
    FloatOps.matmul (DotDims.transposedRhs M K N) none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => rfl
      | ⟨1, _⟩ => exact ((DotDims.transposedRhs M K N).rhsIdx_val_of_single rfl _ _).trans hk)
  rw [el, er]

/-- The host's product with the plain dimension numbers, at (p, c): the sum over k of left(p, k) · right(k, c). -/
theorem plain_dotGeneral_apply {M K N : ℕ} {φ₁ φ₂ : FTy} (sched : HostSchedule) (l : FVec Ideal ⟨2, ![M, K]⟩ φ₁)
    (r : FVec Ideal ⟨2, ![K, N]⟩ φ₂) (p : Fin M) (c : Fin N) :
    FloatOps.dotGeneral (DotDims.plain M K N) none sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A vector of a entries cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] value broadcast along a row of b entries reads its one entry at every (u, c). -/
theorem broadcastTo_11_1b_apply {α : Type} {b : ℕ} (v : (⟨2, ![1, 1]⟩ : Shape).Idx → α)
    (h : (⟨2, ![1, 1]⟩ : Shape).Broadcasts ⟨2, ![1, b]⟩) (u : Fin 1) (c : Fin b) :
    broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Cert.Lib.DotReads

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibRowSoftmax.lean ====
/- Row-wise softmax of a matrix, for any extents, on the extended reals.

   `softmaxRow f c` is the softmax of a finite family `f` at `c`: the exponential of `f c` shifted by the family's
   maximum (taken from the bottom), over the sum of all such exponentials.  The vector body that computes it for every
   row of an `[A, B]` matrix — reduce each row by a maximum from -infinity, make the result a column, broadcast it
   along the lanes, subtract, exponentiate, sum each row from the neutral accumulator, make that a column, broadcast
   it, divide — read at (p, c) is `softmaxRow` of row p at c.  Nothing here depends on a particular program. -/
import Idealize.ShloMosaic.PureOps.Ideal
import Idealize.ShloMosaic.PureOps.Ideal.Laws
import Idealize.ShloMosaic.Lib.ValueIdx
import Idealize.ShloMosaic.Lib.Pipeline.Value
import proofs.«149828_j84628035600548_2_alg».proof.Proof.LibMaxFold
import proofs.«149828_j84628035600548_2_alg».proof.Proof.LibPlainMatmul
import proofs.«149828_j84628035600548_2_alg».proof.Proof.LibBroadcastReads
import proofs.«149828_j84628035600548_2_alg».proof.Proof.LibColumnReads

noncomputable section

open scoped BigOperators

open Idealize.ShloMosaic Idealize.ShloMosaic.ValueIdx

namespace Cert.Lib.RowSoftmax

/-- The softmax of a finite family of extended reals at `c`. -/
def softmaxRow {B : ℕ} (f : Fin B → EReal) (c : Fin B) : EReal :=
  Ideal.div (Ideal.exp (f c - (Finset.univ : Finset (Fin B)).fold max ⊥ f))
    (∑ c' : Fin B, Ideal.exp (f c' - (Finset.univ : Finset (Fin B)).fold max ⊥ f))

variable {A B : ℕ}

/-- The exponentials of a matrix shifted row by row by the row's maximum, as the vector body computes them. -/
def shifted (s : FVec Ideal ⟨2, ![A, B]⟩ .f32) (hr : (⟨2, ![A, B]⟩ : Shape).Reduces [1] ⟨1, ![A]⟩) (hφ : FKind.Formats .f32)
    (hm : (0xFF800000#32 : BitVec 32) = FKind.maximumf.neutral .f32 hφ) (hc : (⟨1, ![A]⟩ : Shape).ShapeCasts ⟨2, ![A, 1]⟩)
    (hb : (⟨2, ![A, 1]⟩ : Shape).Broadcasts ⟨2, ![A, B]⟩) : FVec Ideal ⟨2, ![A, B]⟩ .f32 :=
  exp (subf s (broadcastTo ⟨2, ![A, B]⟩
    (shapeCast ⟨2, ![A, 1]⟩ (multiReduction .maximumf [1] ⟨1, ![A]⟩ s 0xFF800000#32 hr hφ hm) hc) hb))

/-- At (p, c): the exponential of the entry minus the maximum of row p. -/
theorem shifted_apply (s : FVec Ideal ⟨2, ![A, B]⟩ .f32) (hr : (⟨2, ![A, B]⟩ : Shape).Reduces [1] ⟨1, ![A]⟩)
    (hφ : FKind.Formats .f32) (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, B]⟩)
    (p : Fin A) (c : Fin B) :
    shifted s hr hφ hm hc hb (ix2 p c)
      = Ideal.exp (s (ix2 p c) - (Finset.univ : Finset (Fin B)).fold max ⊥ (fun c' => s (ix2 p c'))) := by
  show Ideal.exp (s (ix2 p c) - broadcastTo ⟨2, ![A, B]⟩
    (shapeCast ⟨2, ![A, 1]⟩ (multiReduction .maximumf [1] ⟨1, ![A]⟩ s 0xFF800000#32 hr hφ hm) hc) hb (ix2 p c)) = _
  rw [Cert.Lib.BroadcastReads.broadcastTo_a1_ab_apply, Cert.Lib.ColumnReads.shapeCast_a_a1_apply,
    Cert.Lib.MaxFold.maxRed_apply]
  refine congrArg (fun z => Ideal.exp (s (ix2 p c) - z)) ?_
  refine congrArg (fun f => Finset.fold max ⊥ f Finset.univ) (funext fun c' => congrArg s (funext fun a => Fin.ext ?_))
  match a with
  | ⟨0, _⟩ => rfl
  | ⟨1, _⟩ => rfl

/-- The whole row-softmax body read at (p, c) is the softmax of row p at c. -/
theorem rowSoftmax_apply (s : FVec Ideal ⟨2, ![A, B]⟩ .f32) (hr : (⟨2, ![A, B]⟩ : Shape).Reduces [1] ⟨1, ![A]⟩)
    (hφ : FKind.Formats .f32) (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (c : Fin B) :
    divf (shifted s hr hφ hm hc hb) (broadcastTo ⟨2, ![A, B]⟩
      (shapeCast ⟨2, ![A, 1]⟩ (multiReduction .add [1] ⟨1, ![A]⟩ (shifted s hr hφ hm hc hb) 0x00000000#32 hr hφ ha) hc) hb)
      (ix2 p c)
      = softmaxRow (fun c' => s (ix2 p c')) c := by
  show Ideal.div (shifted s hr hφ hm hc hb (ix2 p c)) (broadcastTo ⟨2, ![A, B]⟩
    (shapeCast ⟨2, ![A, 1]⟩ (multiReduction .add [1] ⟨1, ![A]⟩ (shifted s hr hφ hm hc hb) 0x00000000#32 hr hφ ha) hc) hb
    (ix2 p c)) = _
  rw [Cert.Lib.BroadcastReads.broadcastTo_a1_ab_apply, Cert.Lib.ColumnReads.shapeCast_a_a1_apply,
    Cert.Lib.PlainMatmul.rowSum_apply, shifted_apply]
  unfold softmaxRow
  exact congrArg (Ideal.div _) (Finset.sum_congr rfl fun c' _ => shifted_apply s hr hφ hm hc hb p c')

end Cert.Lib.RowSoftmax

end
-- ==== Proof.PayAttn.lean ====
/- The attention body at an entry.  The block of query rows against the whole key block, contracted on the model
   coordinate of both, times the scale word, gives the scores; each row of scores goes through the softmax (maximum
   from the bottom, shift, exponential, row sum, quotient); the weights times the value block, then the resident
   transposed output matrix, each into the zero accumulator, and the bias row added.  Read at (0, n, e) this is
   `attnRow` of query row n, the key rows, the value rows, the output matrix and the bias.  The changes of float
   format, the casts of a shape to itself and the casts that drop or add the leading unit axis move no value. -/
import proofs.«149828_j84628035600548_2_alg».proof.Proof.Gen.KernelIdeal.Skeleton
import proofs.«149828_j84628035600548_2_alg».proof.Proof.AttnSpec
import proofs.«149828_j84628035600548_2_alg».proof.Proof.LibPlainMatmul
import proofs.«149828_j84628035600548_2_alg».proof.Proof.LibDotReads
import proofs.«149828_j84628035600548_2_alg».proof.Proof.LibRowSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

open Idealize.ShloMosaic Idealize.ShloMosaic.ValueIdx
open Cert.KernelIdeal Cert.KernelIdeal.Gen

namespace Cert.KernelIdeal.Pay

/-- The scaled scores of a block of query rows against the key block, as the body computes them. -/
def scoresV (q : Vec Ideal S1x256x1024 .bf16) (k : Vec Ideal S1x2048x1024 .bf16) : FVec Ideal S256x2048 .f32 :=
  mulf (matmul dot_S256x1024_S2048x1024_S256x2048_1_1_0_0_n_n none
      (shapeCast S256x1024 q shapeCasts_S1x256x1024_S256x1024 : FVec Ideal S256x1024 .bf16)
      (shapeCast S2048x1024 k shapeCasts_S1x2048x1024_S2048x1024 : FVec Ideal S2048x1024 .bf16)
      (constant (F := Ideal) S256x2048 .f32 0x00000000#32))
    (broadcast S256x2048 (Scalar.ofBits (F := Ideal) .f32 0x3E000000#32))

/-- At (n, m): the score of query row n against key row m. -/
theorem scoresV_apply (q : Vec Ideal S1x256x1024 .bf16) (k : Vec Ideal S1x2048x1024 .bf16) (n : Fin 256) (m : Fin 2048) :
    scoresV q k (ix2 n m)
      = Cert.AttnSpec.score (fun d => q (ix3 (0 : Fin 1) n d)) (fun m' d => k (ix3 (0 : Fin 1) m' d)) m := by
  unfold scoresV Cert.AttnSpec.score
  refine congrArg (· * (Ideal.ofBits .f32 0x3E000000#32 : EReal)) ?_
  refine (Cert.Lib.DotReads.lastLast_matmul_zero_apply (M := 256) (K := 1024) (N := 2048)
    (shapeCast S256x1024 q shapeCasts_S1x256x1024_S256x1024 : FVec Ideal S256x1024 .bf16)
    (shapeCast S2048x1024 k shapeCasts_S1x2048x1024_S2048x1024 : FVec Ideal S2048x1024 .bf16) n m).trans ?_
  refine Finset.sum_congr rfl fun d _ => ?_
  rw [shapeCast_1ab_ab_apply, shapeCast_1ab_ab_apply]

/-- The attention payload at (0, n, e): one output entry of query row n. -/
theorem pay_attn_apply (q : Vec Ideal S1x256x1024 .bf16) (k v : Vec Ideal S1x2048x1024 .bf16)
    (wo : Vec Ideal S1024x1024 .bf16) (bs : Vec Ideal S1x1024 .f32) (n : Fin 256) (e : Fin 1024) :
    k1_pay1 (F := Ideal) q k v wo bs (ix3 (0 : Fin 1) n e)
      = Cert.AttnSpec.attnRow (fun d => q (ix3 (0 : Fin 1) n d)) (fun m d => k (ix3 (0 : Fin 1) m d))
          (fun m d => v (ix3 (0 : Fin 1) m d)) (fun d e' => wo (ix2 d e')) (fun e' => bs (ix2 (0 : Fin 1) e')) e := by
  unfold k1_pay1 Cert.AttnSpec.attnRow
  refine (shapeCast_ab_1ab_apply (a := 256) (b := 1024) _ shapeCasts_S256x1024_S1x256x1024 (0 : Fin 1) n e).trans ?_
  refine (addf_apply _ _ (ix2 n e)).trans ?_
  refine congrArg₂ (· + ·) ?_ ?_
  · refine (Cert.Lib.PlainMatmul.plain_matmul_zero_apply (M := 256) (K := 1024) (N := 1024) _ _ n e).trans ?_
    refine Finset.sum_congr rfl fun d _ => congrArg₂ (· * ·) ?_ ?_
    · refine (truncf_apply (ψ := .bf16) _ bitsLt_bf16_f32 (ix2 n d)).trans ?_
      refine (Cert.Lib.PlainMatmul.plain_matmul_zero_apply (M := 256) (K := 2048) (N := 1024) _ _ n d).trans ?_
      refine Finset.sum_congr rfl fun m _ => congrArg₂ (· * ·) ?_ ?_
      · refine (truncf_apply (ψ := .bf16) _ bitsLt_bf16_f32 (ix2 n m)).trans ?_
        refine (Cert.Lib.RowSoftmax.rowSoftmax_apply (A := 256) (B := 2048) (scoresV q k) reduces_S256x2048_S256
          (.inl rfl) rfl rfl shapeCasts_S256_S256x1 broadcasts_S256x1_S256x2048 n m).trans ?_
        exact congrArg (fun f => Cert.AttnSpec.softmax f m) (funext fun c' => scoresV_apply q k n c')
      · exact shapeCast_1ab_ab_apply v shapeCasts_S1x2048x1024_S2048x1024 m d
    · exact congrFun (shapeCast_self wo shapeCasts_S1024x1024_S1024x1024) (ix2 d e)
  · refine (broadcastTo_1b_ab_apply (a := 256) (b := 1024) _ broadcasts_S1x1024_S256x1024 n e).trans ?_
    exact congrFun (shapeCast_self bs shapeCasts_S1x1024_S1x1024) (ix2 (0 : Fin 1) e)

end Cert.KernelIdeal.Pay

end
-- ==== Proof.AttnBlocks.lean ====
/-
  The attention region's result as one function of its arrays. Point (b, i) of the 8 × 8 grid writes back rows
  256·i … 256·i + 255 of batch b: entry (b, n, e) of the [8, 2048, 1024] result is one row of attention — the
  query row n of batch b (columns 0 … 1023 of the projections) against all 2048 key rows of batch b (columns
  1024 … 2047), the softmax of the scaled scores, the weighted sum of the value rows (columns 2048 … 3071),
  that row times the output weights, plus the bias. The query row is read through the point's block, the keys
  and the values through the batch's blocks, the weights and the bias whole. The 64 blocks tile the result
  (row n of batch b lies in the block of point 8·b + n / 256), so the array ends holding that everywhere.
-/
import proofs.«149828_j84628035600548_2_alg».proof.Proof.AttnRegion
import proofs.«149828_j84628035600548_2_alg».proof.Proof.PayAttn
import proofs.«149828_j84628035600548_2_alg».proof.Proof.AttnSpec
import Idealize.ShloMosaic.Lib.Pipeline.Value
import Idealize.ShloMosaic.Lib.ValueIdx

set_option maxRecDepth 16384

noncomputable section

namespace Cert.KernelIdeal.Attn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Column d of the queries, of the keys and of the values among the 3072 columns of the projections. -/
abbrev colQ (d : Fin 1024) : Fin 3072 := ⟨d.val, by have := d.isLt; omega⟩
abbrev colK (d : Fin 1024) : Fin 3072 := ⟨1024 + d.val, by have := d.isLt; omega⟩
abbrev colV (d : Fin 1024) : Fin 3072 := ⟨2048 + d.val, by have := d.isLt; omega⟩

/-- The [8, 2048, 1024] result from the [8, 2048, 3072] projections, the transposed output weights and the bias row,
    entry by entry. -/
def attendedAll (qkv : S8x2048x3072.Idx → EReal) (wo : S1024x1024.Idx → EReal) (bs : S1x1024.Idx → EReal) : S8x2048x1024.Idx → EReal :=
  fun i => Cert.AttnSpec.attnRow (fun d => qkv (ix3 (i 0) (i 1) (colQ d))) (fun m d => qkv (ix3 (i 0) m (colK d)))
    (fun m d => qkv (ix3 (i 0) m (colV d))) (fun d e' => wo (ix2 d e')) (fun e' => bs (ix2 (0 : Fin 1) e')) (i 2)

theorem zero_off3 : (![0, 0, 0] : Fin 3 → Nat) = fun _ => 0 := funext fun a => by fin_cases a <;> rfl
theorem zero_off2 : (![0, 0] : Fin 2 → Nat) = fun _ => 0 := funext fun a => by fin_cases a <;> rfl

/-- The printed index maps, decided over the grid: the queries' block moves with the result's; the keys' and the values'
    blocks are the batch's whole row range at column blocks 1 and 2; the weights' and the bias's blocks are the whole
    arrays; the result's block indices are the point's two coordinates. -/
theorem index_facts : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 1
    ∧ win1_2.index t (0 : Fin 3) = win1_5.index t (0 : Fin 3) ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

/-- WHAT POINT `t` WRITES BACK is block `t` of the attention of the arrays as the region finds them. -/
theorem flushed_eq (c : Dev nD) (t : Fin cfg1.N) :
    (dat V c).flushed 5 t = ((cfg1.win 5).blk t).view.read (Elt Ideal) (attendedAll (V c main_v7) (V c main_v4) (V c main_v5)) := by
  show (cfg1.win 5).cut (grid1.coords t) ((dat V c).after 5 t) = _
  rw [after_out]
  unfold attended
  rw [View.canon_unit_zero zero_off3]
  simp only [View.ld_unit_zero (S := S1x256x1024) zero_off3, View.ld_unit_zero (S := S1x2048x1024) zero_off3,
    View.ld_unit_zero (S := S1024x1024) zero_off2, View.ld_unit_zero (S := S1x1024) zero_off2]
  obtain ⟨q0, q1, q2, k0, k1, k2, v0, v1, v2, w0, w1, b0, b1, o0, o1, o2⟩ := index_facts t
  funext j
  obtain ⟨z, n, e, rfl⟩ : ∃ (z : Fin 1) (n : Fin 256) (e : Fin 1024), j = ix3 z n e := ⟨j 0, j 1, j 2, eq_ix3 j⟩
  obtain rfl : z = 0 := Subsingleton.elim _ _
  have hq : ∀ d : Fin 1024, blockAt V c 0 t (ix3 (0 : Fin 1) n d)
      = V c main_v7 (ix3 ((((cfg1.win 5).blk t).view.emb (ix3 (0 : Fin 1) n e)) 0) ((((cfg1.win 5).blk t).view.emb (ix3 (0 : Fin 1) n e)) 1) (colQ d)) := fun d => by
    show V c main_v7 (((cfg1.win 0).blk t).view.emb (ix3 (0 : Fin 1) n d)) = _
    refine congrArg _ (funext fun a => Fin.ext ?_)
    match a with
    | ⟨0, _⟩ => show win1_0.index t (0 : Fin 3) * 1 + 1 * 0 = win1_5.index t (0 : Fin 3) * 1 + 1 * 0; omega
    | ⟨1, _⟩ => show win1_0.index t (1 : Fin 3) * 256 + 1 * n.val = win1_5.index t (1 : Fin 3) * 256 + 1 * n.val; omega
    | ⟨2, _⟩ => show win1_0.index t (2 : Fin 3) * 1024 + 1 * d.val = d.val; omega
  have hk : ∀ (mm : Fin 2048) (d : Fin 1024), blockAt V c 1 t (ix3 (0 : Fin 1) mm d)
      = V c main_v7 (ix3 ((((cfg1.win 5).blk t).view.emb (ix3 (0 : Fin 1) n e)) 0) mm (colK d)) := fun mm d => by
    show V c main_v7 (((cfg1.win 1).blk t).view.emb (ix3 (0 : Fin 1) mm d)) = _
    refine congrArg _ (funext fun a => Fin.ext ?_)
    match a with
    | ⟨0, _⟩ => show win1_1.index t (0 : Fin 3) * 1 + 1 * 0 = win1_5.index t (0 : Fin 3) * 1 + 1 * 0; omega
    | ⟨1, _⟩ => show win1_1.index t (1 : Fin 3) * 2048 + 1 * mm.val = mm.val; omega
    | ⟨2, _⟩ => show win1_1.index t (2 : Fin 3) * 1024 + 1 * d.val = 1024 + d.val; omega
  have hv : ∀ (mm : Fin 2048) (d : Fin 1024), blockAt V c 2 t (ix3 (0 : Fin 1) mm d)
      = V c main_v7 (ix3 ((((cfg1.win 5).blk t).view.emb (ix3 (0 : Fin 1) n e)) 0) mm (colV d)) := fun mm d => by
    show V c main_v7 (((cfg1.win 2).blk t).view.emb (ix3 (0 : Fin 1) mm d)) = _
    refine congrArg _ (funext fun a => Fin.ext ?_)
    match a with
    | ⟨0, _⟩ => show win1_2.index t (0 : Fin 3) * 1 + 1 * 0 = win1_5.index t (0 : Fin 3) * 1 + 1 * 0; omega
    | ⟨1, _⟩ => show win1_2.index t (1 : Fin 3) * 2048 + 1 * mm.val = mm.val; omega
    | ⟨2, _⟩ => show win1_2.index t (2 : Fin 3) * 1024 + 1 * d.val = 2048 + d.val; omega
  have hwo : ∀ (d e' : Fin 1024), blockAt V c 3 t (ix2 d e') = V c main_v4 (ix2 d e') := fun d e' => by
    show V c main_v4 (((cfg1.win 3).blk t).view.emb (ix2 d e')) = _
    refine congrArg _ (funext fun a => Fin.ext ?_)
    match a with
    | ⟨0, _⟩ => show win1_3.index t (0 : Fin 2) * 1024 + 1 * d.val = d.val; omega
    | ⟨1, _⟩ => show win1_3.index t (1 : Fin 2) * 1024 + 1 * e'.val = e'.val; omega
  have hb : ∀ (e' : Fin 1024), blockAt V c 4 t (ix2 (0 : Fin 1) e') = V c main_v5 (ix2 (0 : Fin 1) e') := fun e' => by
    show V c main_v5 (((cfg1.win 4).blk t).view.emb (ix2 (0 : Fin 1) e')) = _
    refine congrArg _ (funext fun a => Fin.ext ?_)
    match a with
    | ⟨0, _⟩ => show win1_4.index t (0 : Fin 2) * 1 + 1 * 0 = 0; omega
    | ⟨1, _⟩ => show win1_4.index t (1 : Fin 2) * 1024 + 1 * e'.val = e'.val; omega
  have he : (((cfg1.win 5).blk t).view.emb (ix3 (0 : Fin 1) n e)) 2 = e := Fin.ext (by
    show win1_5.index t (2 : Fin 3) * 1024 + 1 * e.val = e.val; omega)
  refine (Pay.pay_attn_apply (blockAt V c 0 t) (blockAt V c 1 t) (blockAt V c 2 t) (blockAt V c 3 t) (blockAt V c 4 t) n e).trans ?_
  simp only [hq, hk, hv, hwo, hb]
  show _ = attendedAll (V c main_v7) (V c main_v4) (V c main_v5) (((cfg1.win 5).blk t).view.emb (ix3 (0 : Fin 1) n e))
  unfold attendedAll
  rw [he]

/-- An index of the result is in point `t`'s block iff each coordinate is in the block's range on its axis. -/
theorem mem_block (t : Fin cfg1.N) (i : S8x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v8).slice (win1_5.rect t)).set ↔ _
  rw [View.set_slice_whole, Rect.mem_set_unit]
  exact Iff.rfl

/-- Every entry of the result is in some point's block: row n of batch b in the block of point 8·b + n / 256. -/
theorem covered (i : S8x2048x1024.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 1024 := (i 2).isLt
  have hN : cfg1.N = 64 := N_1
  let t : Fin cfg1.N := ⟨(i 0).val * 8 + (i 1).val / 256, by rw [hN]; omega⟩
  obtain ⟨q0, q1, q2, k0, k1, k2, v0, v1, v2, w0, w1, b0, b1, o0, o1, o2⟩ := index_facts t
  have ht : t.val = (i 0).val * 8 + (i 1).val / 256 := rfl
  refine ⟨t, flush1_5 t, ?_⟩
  rw [mem_block]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- THE RESULT ARRAY after the region: the attention of the arrays as the region finds them. -/
theorem result_final (c : Dev nD) : (dat V c).arrAt 5 cfg1.N = attendedAll (V c main_v7) (V c main_v4) (V c main_v5) :=
  (dat V c).arrAt_eq_of_cover 5 (attendedAll (V c main_v7) (V c main_v4) (V c main_v5)) (fun t _ => flushed_eq V c t) covered

end Cert.KernelIdeal.Attn

end
-- ==== Proof.HostLayout.lean ====
/- The host's layout steps around the two calls, read at coordinates.  Merging the two leading axes [8, 2048] into
   16384 rows puts entry (b, n, k) at row b · 2048 + n, and splitting them again reads it back from there: both
   sit at the same row-major position.  A transposed matrix reads (k, e) at (e, k), and the change of float format
   after it moves no value.  A vector made a one-row matrix reads its entry e at (0, e). -/
import proofs.«149828_j84628035600548_2_alg».proof.KernelIdeal
import Idealize.ShloMosaic.Lib.ValueIdx
import Idealize.ShloMosaic.Lib.ValueLayout
import Idealize.ShloMosaic.Lib.Pipeline.Value
import Idealize.ShloMosaic.PureOps.Ideal

noncomputable section

open Idealize.ShloMosaic Idealize.ShloMosaic.ValueIdx
open Cert.KernelIdeal

namespace Cert.KernelIdeal.Layout

/-- The row of the merged [16384, ·] arrays that holds sequence position n of batch b. -/
abbrev row (b : Fin 8) (n : Fin 2048) : Fin 16384 := ⟨b.val * 2048 + n.val, by have := b.isLt; have := n.isLt; omega⟩

/-- The input with its two leading axes merged reads, at (row b n, k), the input at (b, n, k). -/
theorem flatten_read (x : FVec Ideal S8x2048x1024 .f32) (h : S8x2048x1024.ShapeCasts S16384x1024) (b : Fin 8) (n : Fin 2048)
    (k : Fin 1024) : shapeCast S16384x1024 x h (ix2 (row b n) k) = x (ix3 b n k) :=
  shapeCast_apply x h _ _ (by
    rw [Shape.rowMajor_val_three, Shape.rowMajor_val_two]
    show (b.val * 2048 + n.val) * 1024 + k.val = (b.val * 2048 + n.val) * 1024 + k.val
    rfl)

/-- The projected rows split back into [8, 2048, ·] read, at (b, n, e), the merged array at (row b n, e). -/
theorem unflatten_read (y : FVec Ideal S16384x3072 .bf16) (h : S16384x3072.ShapeCasts S8x2048x3072) (b : Fin 8) (n : Fin 2048)
    (e : Fin 3072) : shapeCast S8x2048x3072 y h (ix3 b n e) = y (ix2 (row b n) e) :=
  shapeCast_apply y h _ _ (by
    rw [Shape.rowMajor_val_three, Shape.rowMajor_val_two]
    show (b.val * 2048 + n.val) * 3072 + e.val = (b.val * 2048 + n.val) * 3072 + e.val
    rfl)

/-- The projection weight transposed and changed of format reads, at (k, e), the weight at (e, k). -/
theorem wqkv_t_read (w : FVec Ideal S3072x1024 .f32) (h : S3072x1024.Transposes [1, 0] S1024x3072)
    (h' : FTy.bits .bf16 < FTy.bits .f32) (k : Fin 1024) (e : Fin 3072) :
    ((truncf .bf16 (transpose S1024x3072 [1, 0] w h) h' : FVec Ideal S1024x3072 .bf16) (ix2 k e) : EReal) = w (ix2 e k) :=
  transpose_ix2_apply w h k e

/-- The output weight transposed and changed of format reads, at (d, e), the weight at (e, d). -/
theorem wout_t_read (w : FVec Ideal S1024x1024 .f32) (h : S1024x1024.Transposes [1, 0] S1024x1024)
    (h' : FTy.bits .bf16 < FTy.bits .f32) (d e : Fin 1024) :
    ((truncf .bf16 (transpose S1024x1024 [1, 0] w h) h' : FVec Ideal S1024x1024 .bf16) (ix2 d e) : EReal) = w (ix2 e d) :=
  transpose_ix2_apply w h d e

/-- The bias made a one-row matrix reads, at (0, e), the bias at e. -/
theorem bias_row_read (b : FVec Ideal S1024 .f32) (h : S1024.ShapeCasts S1x1024) (e : Fin 1024) :
    shapeCast S1x1024 b h (ix2 (0 : Fin 1) e) = b (ix1 e) :=
  shapeCast_a_1a_apply b h (0 : Fin 1) e

end Cert.KernelIdeal.Layout

end
-- ==== Proof.KernelValue.lean ====
/-
  The kernel program's result, entry by entry, as a function of the launch arrays. Entry (b, n, e) of the result
  is one row of attention over the projections of batch b; the projection of row (b, n) onto column c is the sum
  over d of x[b, n, d] · w_qkv[c, d] (the flattened activations times the transposed weights, read back through
  the reshape); the output weights enter transposed and the bias as given.
-/
import proofs.«149828_j84628035600548_2_alg».proof.Proof.HostStretches
import proofs.«149828_j84628035600548_2_alg».proof.Proof.ProjBlocks
import proofs.«149828_j84628035600548_2_alg».proof.Proof.AttnBlocks
import proofs.«149828_j84628035600548_2_alg».proof.Proof.HostLayout

set_option maxRecDepth 16384

noncomputable section

namespace Cert.KernelIdeal.Whole

open Idealize.ShloMosaic Idealize.ShloMosaic.TcCoe Idealize.ShloMosaic.ValueIdx
open Idealize.SL Idealize.SL.Sem
open Cert.KernelIdeal Cert.KernelIdeal.Gen Cert.KernelIdeal.Layout

/-- The product read at (r, e): the sum over k. -/
theorem projected_apply (x2 : S16384x1024.Idx → EReal) (wt : S1024x3072.Idx → EReal) (r : Fin 16384) (e : Fin 3072) :
    Proj.projected x2 wt (ix2 r e) = ∑ k : Fin 1024, x2 (ix2 r k) * wt (ix2 k e) := rfl

/-- A row of attention depends on its five arguments only through their values. -/
theorem attnRow_congr {q q' : Fin 1024 → EReal} {K K' V V' : Fin 2048 → Fin 1024 → EReal} {Wo Wo' : Fin 1024 → Fin 1024 → EReal}
    {bias bias' : Fin 1024 → EReal} (hq : ∀ d, q d = q' d) (hK : ∀ mm d, K mm d = K' mm d) (hV : ∀ mm d, V mm d = V' mm d)
    (hWo : ∀ d e', Wo d e' = Wo' d e') (hb : ∀ e', bias e' = bias' e') (e : Fin 1024) :
    Cert.AttnSpec.attnRow q K V Wo bias e = Cert.AttnSpec.attnRow q' K' V' Wo' bias' e := by
  rw [show q = q' from funext hq, show K = K' from funext fun mm => funext (hK mm), show V = V' from funext fun mm => funext (hV mm),
    show Wo = Wo' from funext fun d => funext (hWo d), show bias = bias' from funext hb]

variable (m : (ℓ : Loc nD τ sig) → Buf (Elt Ideal) ℓ) (ρ : Dev nD → PrngReg)

/-- The four arguments as launched, on core `c`. -/
abbrev argX (c : Dev nD) : S8x2048x1024.Idx → EReal := m ((c : Thread nD τ).loc main_arg0)
abbrev argWqkv (c : Dev nD) : S3072x1024.Idx → EReal := m ((c : Thread nD τ).loc main_arg1)
abbrev argWout (c : Dev nD) : S1024x1024.Idx → EReal := m ((c : Thread nD τ).loc main_arg2)
abbrev argBias (c : Dev nD) : S1024.Idx → EReal := m ((c : Thread nD τ).loc main_arg3)

/-- The projection of row (b, n) onto column c of the 3072. -/
abbrev projOf (c : Dev nD) : Fin 8 → Fin 2048 → Fin 3072 → EReal :=
  Cert.AttnSpec.proj (fun b n d => argX m c (ix3 b n d)) (fun e d => argWqkv m c (ix2 e d))

theorem x_read (c : Dev nD) (bb : Fin 8) (n : Fin 2048) (k : Fin 1024) :
    (V1 m ρ c main_v0 : S16384x1024.Idx → EReal) (ix2 (row bb n) k) = argX m c (ix3 bb n k) :=
  (congrFun (entry_x m ρ c) _).trans (flatten_read _ _ bb n k)

theorem wqkv_read (c : Dev nD) (k : Fin 1024) (e : Fin 3072) :
    (V1 m ρ c main_v2 : S1024x3072.Idx → EReal) (ix2 k e) = argWqkv m c (ix2 e k) :=
  (congrFun (entry_wqkv m ρ c) _).trans (wqkv_t_read _ _ _ k e)

theorem wout_read (c : Dev nD) (d e : Fin 1024) :
    (V3 m ρ c main_v4 : S1024x1024.Idx → EReal) (ix2 d e) = argWout m c (ix2 e d) :=
  (congrFun ((entry_wout m ρ c).trans (first_wout m ρ c)) _).trans (wout_t_read _ _ _ d e)

theorem bias_read (c : Dev nD) (e : Fin 1024) :
    (V3 m ρ c main_v5 : S1x1024.Idx → EReal) (ix2 (0 : Fin 1) e) = argBias m c (ix1 e) :=
  (congrFun ((entry_bias m ρ c).trans (first_bias m ρ c)) _).trans (bias_row_read _ _ e)

/-- The projection region leaves the product of what it found. -/
theorem proj_value (c : Dev nD) :
    (V2 m ρ c main_v6 : S16384x3072.Idx → EReal) = Proj.projected (V1 m ρ c main_v0) (V1 m ρ c main_v2) :=
  (proj_final m ρ c 2).symm.trans (Proj.result_final (V1 m ρ) c)

/-- What the attention region finds at (b, n, c) of the reshaped projections. -/
theorem qkv_read (c : Dev nD) (bb : Fin 8) (n : Fin 2048) (col : Fin 3072) :
    (V3 m ρ c main_v7 : S8x2048x3072.Idx → EReal) (ix3 bb n col) = projOf m c bb n col := by
  refine (congrFun (entry_qkv m ρ c) _).trans ((unflatten_read _ _ bb n col).trans ?_)
  refine (congrFun (proj_value m ρ c) _).trans ((projected_apply _ _ (row bb n) col).trans ?_)
  exact Finset.sum_congr rfl fun k _ => by rw [x_read, wqkv_read]

/-- THE RESULT, entry by entry. -/
theorem result_apply (c : Dev nD) (bb : Fin 8) (n : Fin 2048) (e : Fin 1024) :
    (W4 m ρ c (Proc.devRef .tc main_v8) : S8x2048x1024.Idx → EReal) (ix3 bb n e)
      = Cert.AttnSpec.attnRow (fun d => projOf m c bb n (Attn.colQ d)) (fun mm d => projOf m c bb mm (Attn.colK d))
          (fun mm d => projOf m c bb mm (Attn.colV d)) (fun d e' => argWout m c (ix2 e' d)) (fun e' => argBias m c (ix1 e')) e := by
  refine (congrFun ((W4_result m ρ c).trans (Attn.result_final (V3 m ρ) c)) _).trans ?_
  exact attnRow_congr (fun d => qkv_read m ρ c bb n (Attn.colQ d)) (fun mm d => qkv_read m ρ c bb mm (Attn.colK d))
    (fun mm d => qkv_read m ρ c bb mm (Attn.colV d)) (fun d e' => wout_read m ρ c d e') (fun e' => bias_read m ρ c e') e

end Cert.KernelIdeal.Whole

end
-- ==== Proof.RefScores.lean ====
/- The first stages of the reference, read at coordinates: the projection einsum is `proj`; its three column
   ranges are the query, key and value parts; the batched product of the query part with the key part, contracted on
   the model coordinate, times the scale word is the score of a query row against a key row. -/
import proofs.«149828_j84628035600548_2_alg».proof.Proof.Gen.ReferenceIdeal.Read
import proofs.«149828_j84628035600548_2_alg».proof.Proof.AttnSpec

noncomputable section

open scoped BigOperators

open Idealize.ShloMosaic Idealize.ShloMosaic.ValueIdx
open Cert.ReferenceIdeal Cert.ReferenceIdeal.Gen Cert.ReferenceIdeal.Read

namespace Cert.ReferenceIdeal.RefRead

/-- Column d of the query part, of the key part and of the value part of the projected width. -/
abbrev colQ (d : Fin 1024) : Fin 3072 := ⟨d.val, Nat.lt_of_lt_of_le d.isLt (by decide)⟩
abbrev colK (d : Fin 1024) : Fin 3072 := ⟨1024 + d.val, by have := d.isLt; omega⟩
abbrev colV (d : Fin 1024) : Fin 3072 := ⟨2048 + d.val, by have := d.isLt; omega⟩

/-- The projection of the reference's two arguments, by coordinates. -/
abbrev P (x : (⟨S8x2048x1024, .f32⟩ : BufTy).Contents (Elt Ideal)) (w : (⟨S3072x1024, .f32⟩ : BufTy).Contents (Elt Ideal)) : Fin 8 → Fin 2048 → Fin 3072 → EReal :=
  Cert.AttnSpec.proj (fun b n d => x (ix3 b n d)) (fun e d => w (ix2 e d))

/-- The scores of query row (bb, n) against every key row of batch bb. -/
abbrev rowScore (x : (⟨S8x2048x1024, .f32⟩ : BufTy).Contents (Elt Ideal)) (w : (⟨S3072x1024, .f32⟩ : BufTy).Contents (Elt Ideal)) (bb : Fin 8) (n : Fin 2048) : Fin 2048 → EReal :=
  Cert.AttnSpec.score (fun d => P x w bb n (colQ d)) (fun m d => P x w bb m (colK d))

theorem v0_apply (x : (⟨S8x2048x1024, .f32⟩ : BufTy).Contents (Elt Ideal)) (w : (⟨S3072x1024, .f32⟩ : BufTy).Contents (Elt Ideal)) (bb : Fin 8) (n : Fin 2048) (e : Fin 3072) :
    val_main_v0 (F := Ideal) x w (ix3 bb n e) = P x w bb n e := by
  rw [val_main_v0_apply]
  show _ = ∑ d : Fin 1024, x (ix3 bb n d) * w (ix2 e d)
  exact Finset.sum_congr rfl fun k _ => congrArg₂ (· * ·) (congrArg x (funext fun a => Fin.ext (by match a with | ⟨0, _⟩ => rfl | ⟨1, _⟩ => rfl | ⟨2, _⟩ => rfl))) (congrArg w (funext fun a => Fin.ext (by match a with | ⟨0, _⟩ => rfl | ⟨1, _⟩ => rfl)))

theorem v1_apply (x : (⟨S8x2048x1024, .f32⟩ : BufTy).Contents (Elt Ideal)) (w : (⟨S3072x1024, .f32⟩ : BufTy).Contents (Elt Ideal)) (bb : Fin 8) (n : Fin 2048) (d : Fin 1024) :
    val_main_v1 (F := Ideal) x w (ix3 bb n d) = P x w bb n (colQ d) := by
  rw [val_main_v1_apply]
  exact (congrArg (val_main_v0 (F := Ideal) x w) (funext fun a => Fin.ext (by match a with | ⟨0, _⟩ => rfl | ⟨1, _⟩ => rfl | ⟨2, _⟩ => rfl))).trans (v0_apply x w bb n (colQ d))

theorem v2_apply (x : (⟨S8x2048x1024, .f32⟩ : BufTy).Contents (Elt Ideal)) (w : (⟨S3072x1024, .f32⟩ : BufTy).Contents (Elt Ideal)) (bb : Fin 8) (n : Fin 2048) (d : Fin 1024) :
    val_main_v2 (F := Ideal) x w (ix3 bb n d) = P x w bb n (colK d) := by
  rw [val_main_v2_apply]
  exact (congrArg (val_main_v0 (F := Ideal) x w) (funext fun a => Fin.ext (by match a with | ⟨0, _⟩ => rfl | ⟨1, _⟩ => rfl | ⟨2, _⟩ => rfl))).trans (v0_apply x w bb n (colK d))

theorem v3_apply (x : (⟨S8x2048x1024, .f32⟩ : BufTy).Contents (Elt Ideal)) (w : (⟨S3072x1024, .f32⟩ : BufTy).Contents (Elt Ideal)) (bb : Fin 8) (n : Fin 2048) (d : Fin 1024) :
    val_main_v3 (F := Ideal) x w (ix3 bb n d) = P x w bb n (colV d) := by
  rw [val_main_v3_apply]
  exact (congrArg (val_main_v0 (F := Ideal) x w) (funext fun a => Fin.ext (by match a with | ⟨0, _⟩ => rfl | ⟨1, _⟩ => rfl | ⟨2, _⟩ => rfl))).trans (v0_apply x w bb n (colV d))

theorem v6_apply (x : (⟨S8x2048x1024, .f32⟩ : BufTy).Contents (Elt Ideal)) (w : (⟨S3072x1024, .f32⟩ : BufTy).Contents (Elt Ideal)) (bb : Fin 8) (n m : Fin 2048) :
    val_main_v6 (F := Ideal) x w (ix3 bb n m) = rowScore x w bb n m := by
  rw [val_main_v6_apply, val_main_v4_apply, val_main_v5_apply, val_main_cst_apply]
  show _ * (Ideal.ofBits .f32 0x3E000000#32 : EReal) = (∑ d : Fin 1024, P x w bb n (colQ d) * P x w bb m (colK d)) * _
  refine congrArg (· * (Ideal.ofBits .f32 0x3E000000#32 : EReal)) (Finset.sum_congr rfl fun k _ => congrArg₂ (· * ·) ?_ ?_)
  · exact (congrArg (val_main_v1 (F := Ideal) x w) (funext fun a => Fin.ext (by match a with | ⟨0, _⟩ => rfl | ⟨1, _⟩ => rfl | ⟨2, _⟩ => rfl))).trans (v1_apply x w bb n k)
  · exact (congrArg (val_main_v2 (F := Ideal) x w) (funext fun a => Fin.ext (by match a with | ⟨0, _⟩ => rfl | ⟨1, _⟩ => rfl | ⟨2, _⟩ => rfl))).trans (v2_apply x w bb m k)

end Cert.ReferenceIdeal.RefRead

end
-- ==== Proof.RefRead.lean ====
/- The reference read at an entry.  Along each row of scores: the host maximum from the constant -infinity is the
   maximum from the bottom, and the further maximum with -infinity changes nothing; the broadcasts put it back along
   the row; the exponentials of the shifted scores are summed from the zero constant, which adds nothing; their
   quotient is the softmax.  The weights against the value part, then against the output matrix on its second axis,
   plus the bias broadcast along the leading axes: `attnRow` of the query part's row, the key part, the value part,
   the output matrix transposed, and the bias. -/
import proofs.«149828_j84628035600548_2_alg».proof.Proof.Gen.ReferenceIdeal.Read
import proofs.«149828_j84628035600548_2_alg».proof.Proof.AttnSpec
import proofs.«149828_j84628035600548_2_alg».proof.Proof.RefScores
import proofs.«149828_j84628035600548_2_alg».proof.Proof.LibMaxFold

noncomputable section

open scoped BigOperators

open Idealize.ShloMosaic Idealize.ShloMosaic.ValueIdx
open Cert.ReferenceIdeal Cert.ReferenceIdeal.Gen Cert.ReferenceIdeal.Read

namespace Cert.ReferenceIdeal.RefRead

/-- The host maximum along the last axis from -infinity, at (bb, n): the maximum from the bottom of the row's scores. -/
theorem v7_apply (x : (⟨S8x2048x1024, .f32⟩ : BufTy).Contents (Elt Ideal)) (w : (⟨S3072x1024, .f32⟩ : BufTy).Contents (Elt Ideal)) (bb : Fin 8) (n : Fin 2048) :
    val_main_v7 (F := Ideal) x w (ix2 bb n) = (Finset.univ : Finset (Fin 2048)).fold max ⊥ (rowScore x w bb n) := by
  have e : ∀ m, val_main_v6 (F := Ideal) x w (ix3 bb n m) = rowScore x w bb n m := v6_apply x w bb n
  unfold val_main_v7 val_main_cst_0
  generalize val_main_v6 (F := Ideal) x w = y at e ⊢
  refine (Cert.Lib.MaxFold.hostMaxRed_apply (s := S8x2048x2048) (t := S8x2048) (u := S_) (a := 2) y
    reducesTo_S8x2048x2048_S8x2048_d2 (by decide) h_S_ (ix2 bb n)).trans ?_
  refine congrArg (fun f => Finset.fold max ⊥ f Finset.univ) (funext fun m => ?_)
  exact (congrArg y (funext fun a => Fin.ext (by match a with | ⟨0, _⟩ => rfl | ⟨1, _⟩ => rfl | ⟨2, _⟩ => rfl))).trans (e m)

/-- The further maximum with -infinity is the same maximum. -/
theorem v9_apply (x : (⟨S8x2048x1024, .f32⟩ : BufTy).Contents (Elt Ideal)) (w : (⟨S3072x1024, .f32⟩ : BufTy).Contents (Elt Ideal)) (bb : Fin 8) (n : Fin 2048) :
    val_main_v9 (F := Ideal) x w (ix2 bb n) = (Finset.univ : Finset (Fin 2048)).fold max ⊥ (rowScore x w bb n) := by
  rw [val_main_v9_apply, val_main_v8_apply, val_main_cst_1_apply, v7_apply]
  show max (Ideal.ofBits .f32 0xFF800000#32 : EReal) _ = _
  rw [Cert.Lib.MaxFold.ofBits_neg_inf]
  exact max_eq_right bot_le

/-- The shifted exponential at (bb, n, m). -/
theorem v13_apply (x : (⟨S8x2048x1024, .f32⟩ : BufTy).Contents (Elt Ideal)) (w : (⟨S3072x1024, .f32⟩ : BufTy).Contents (Elt Ideal)) (bb : Fin 8) (n m : Fin 2048) :
    val_main_v13 (F := Ideal) x w (ix3 bb n m)
      = Ideal.exp (rowScore x w bb n m - (Finset.univ : Finset (Fin 2048)).fold max ⊥ (rowScore x w bb n)) := by
  rw [val_main_v13_apply, val_main_v12_apply, val_main_v11_apply, val_main_v10_apply, v6_apply]
  rw [show idx_main_v10 (idx_main_v11 (ix3 bb n m)) = ix2 bb n from funext fun a => Fin.ext (by match a with | ⟨0, _⟩ => rfl | ⟨1, _⟩ => rfl), v9_apply]
  rfl

/-- The row sum from the zero constant at (bb, n). -/
theorem v14_apply (x : (⟨S8x2048x1024, .f32⟩ : BufTy).Contents (Elt Ideal)) (w : (⟨S3072x1024, .f32⟩ : BufTy).Contents (Elt Ideal)) (bb : Fin 8) (n : Fin 2048) :
    val_main_v14 (F := Ideal) x w (ix2 bb n)
      = ∑ m : Fin 2048, Ideal.exp (rowScore x w bb n m - (Finset.univ : Finset (Fin 2048)).fold max ⊥ (rowScore x w bb n)) := by
  rw [val_main_v14_apply, val_main_cst_2_apply]
  show (Ideal.ofBits .f32 0x00000000#32 : EReal) + _ = _
  rw [Ideal.ofBits_zero_f32, zero_add]
  refine Finset.sum_congr rfl fun m _ => ?_
  exact (congrArg (val_main_v13 (F := Ideal) x w) (funext fun a => Fin.ext (by match a with | ⟨0, _⟩ => rfl | ⟨1, _⟩ => rfl | ⟨2, _⟩ => rfl))).trans (v13_apply x w bb n m)

/-- The softmax weight at (bb, n, m). -/
theorem v17_apply (x : (⟨S8x2048x1024, .f32⟩ : BufTy).Contents (Elt Ideal)) (w : (⟨S3072x1024, .f32⟩ : BufTy).Contents (Elt Ideal)) (bb : Fin 8) (n m : Fin 2048) :
    val_main_v17 (F := Ideal) x w (ix3 bb n m) = Cert.AttnSpec.softmax (rowScore x w bb n) m := by
  rw [val_main_v17_apply, val_main_v16_apply, val_main_v15_apply, v13_apply]
  rw [show idx_main_v15 (idx_main_v16 (ix3 bb n m)) = ix2 bb n from funext fun a => Fin.ext (by match a with | ⟨0, _⟩ => rfl | ⟨1, _⟩ => rfl), v14_apply]
  rfl

/-- The reference at (bb, n, e): `attnRow` of the query part's row n, the key and value parts of batch bb, the
    output matrix read (column, row), and the bias. -/
theorem ref_apply (x : (⟨S8x2048x1024, .f32⟩ : BufTy).Contents (Elt Ideal)) (wqkv : (⟨S3072x1024, .f32⟩ : BufTy).Contents (Elt Ideal)) (wout : (⟨S1024x1024, .f32⟩ : BufTy).Contents (Elt Ideal)) (b : (⟨S1024, .f32⟩ : BufTy).Contents (Elt Ideal)) (bb : Fin 8) (n : Fin 2048) (e : Fin 1024) :
    val_main_v22 (F := Ideal) x wqkv wout b (ix3 bb n e)
      = Cert.AttnSpec.attnRow (fun d => P x wqkv bb n (colQ d)) (fun m d => P x wqkv bb m (colK d))
          (fun m d => P x wqkv bb m (colV d)) (fun d e' => wout (ix2 e' d)) (fun e' => b (ix1 e')) e := by
  rw [val_main_v22_apply, val_main_v19_apply, val_main_v21_apply, val_main_v20_apply]
  show _ + _ = (∑ d : Fin 1024, (∑ m : Fin 2048, Cert.AttnSpec.softmax (rowScore x wqkv bb n) m * P x wqkv bb m (colV d)) * wout (ix2 e d)) + b (ix1 e)
  refine congrArg₂ (· + ·) (Finset.sum_congr rfl fun d _ => congrArg₂ (· * ·) ?_ (congrArg wout (funext fun a => Fin.ext (by match a with | ⟨0, _⟩ => rfl | ⟨1, _⟩ => rfl)))) (congrArg b (funext fun a => Fin.ext (by match a with | ⟨0, _⟩ => rfl)))
  rw [show lidx_main_v19 (ix3 bb n e) d = ix3 bb n d from funext fun a => Fin.ext (by match a with | ⟨0, _⟩ => rfl | ⟨1, _⟩ => rfl | ⟨2, _⟩ => rfl), val_main_v18_apply]
  refine Finset.sum_congr rfl fun m _ => congrArg₂ (· * ·) ?_ ?_
  · exact (congrArg (val_main_v17 (F := Ideal) x wqkv) (funext fun a => Fin.ext (by match a with | ⟨0, _⟩ => rfl | ⟨1, _⟩ => rfl | ⟨2, _⟩ => rfl))).trans (v17_apply x wqkv bb n m)
  · exact (congrArg (val_main_v3 (F := Ideal) x wqkv) (funext fun a => Fin.ext (by match a with | ⟨0, _⟩ => rfl | ⟨1, _⟩ => rfl | ⟨2, _⟩ => rfl))).trans (v3_apply x wqkv bb m d)

end Cert.ReferenceIdeal.RefRead

end
-- ==== Proof.lean ====
/-
  Self-attention over x : [8, 2048, 1024] with projection weights [3072, 1024], output weights [1024, 1024] and a
  bias [1024]: a program of two kernel regions (the q, k, v projection as one [16384, 1024] × [1024, 3072] product
  computed in 32 row blocks; then, per batch and block of 256 query rows, scores against all 2048 keys scaled by
  1/8, the row softmax, the weighted sum of the values, the output projection and the bias) against the same
  computation written as four contractions and a softmax on whole arrays.

  On extended reals the two are one function, entry by entry: entry (b, n, e) of either result is
      Σ_d (Σ_m softmax_m((Σ_d' q[b,n,d'] · k[b,m,d']) · 1/8) · v[b,m,d]) · w_out[e,d] + bias[e],
  with q, k, v the three column ranges of Σ_d x[b,·,d] · w_qkv[c,d], the softmax's maximum folded from −∞ and its sum
  from 0 on both sides. No law beyond reading sums at an index is used, so the inputs' finiteness is never opened.
  The two kernel programs' frames and the kernel's value come from one run of the program as four segments
  (two host stretches, two regions), stated at any float instance; the reference's run is its composed term.
-/
import proofs.«149828_j84628035600548_2_alg».proof.Defs
import proofs.«149828_j84628035600548_2_alg».proof.Proof.Gen.Kernel
import proofs.«149828_j84628035600548_2_alg».proof.Proof.Gen.KernelIdeal
import proofs.«149828_j84628035600548_2_alg».proof.Proof.Gen.ReferenceIdeal
import proofs.«149828_j84628035600548_2_alg».proof.Proof.Gen.ReferenceIdeal.Run
import proofs.«149828_j84628035600548_2_alg».proof.Proof.Gen.ReferenceIdeal.Read
import proofs.«149828_j84628035600548_2_alg».proof.Proof.Gen.Pre_finite_inputs
import proofs.«149828_j84628035600548_2_alg».proof.Proof.BitsWholeRun
import proofs.«149828_j84628035600548_2_alg».proof.Proof.KernelValue
import proofs.«149828_j84628035600548_2_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its four arguments as launched: each is read off the last valuation,
    which no host stretch and no region changes at an argument. -/
theorem frame_bits : Cert.frame_Kernel := fun m ρ _ =>
  (θ_run (Cert.Kernel.defs (F := Bits)) _ _).mono (fun r h c =>
    ⟨(h c _ (Cert.Kernel.Whole.mem_uc Cert.Kernel.main_arg0 (by decide))).trans
        (Cert.Kernel.Whole.W4_kept m ρ c Cert.Kernel.main_arg0 (by decide) (by decide) (by decide) (by decide)),
     (h c _ (Cert.Kernel.Whole.mem_uc Cert.Kernel.main_arg1 (by decide))).trans
        (Cert.Kernel.Whole.W4_kept m ρ c Cert.Kernel.main_arg1 (by decide) (by decide) (by decide) (by decide)),
     (h c _ (Cert.Kernel.Whole.mem_uc Cert.Kernel.main_arg2 (by decide))).trans
        (Cert.Kernel.Whole.W4_kept m ρ c Cert.Kernel.main_arg2 (by decide) (by decide) (by decide) (by decide)),
     (h c _ (Cert.Kernel.Whole.mem_uc Cert.Kernel.main_arg3 (by decide))).trans
        (Cert.Kernel.Whole.W4_kept m ρ c Cert.Kernel.main_arg3 (by decide) (by decide) (by decide) (by decide))⟩)
    (Cert.Kernel.Whole.run (F := Bits) m ρ)

/-- The same of the program read on extended reals. -/
theorem frame_ideal : Cert.frame_KernelIdeal := fun m ρ _ =>
  (θ_run (Cert.KernelIdeal.defs (F := Ideal)) _ _).mono (fun r h c =>
    ⟨(h c _ (Cert.KernelIdeal.Whole.mem_uc Cert.KernelIdeal.main_arg0 (by decide))).trans
        (Cert.KernelIdeal.Whole.W4_kept m ρ c Cert.KernelIdeal.main_arg0 (by decide) (by decide) (by decide) (by decide)),
     (h c _ (Cert.KernelIdeal.Whole.mem_uc Cert.KernelIdeal.main_arg1 (by decide))).trans
        (Cert.KernelIdeal.Whole.W4_kept m ρ c Cert.KernelIdeal.main_arg1 (by decide) (by decide) (by decide) (by decide)),
     (h c _ (Cert.KernelIdeal.Whole.mem_uc Cert.KernelIdeal.main_arg2 (by decide))).trans
        (Cert.KernelIdeal.Whole.W4_kept m ρ c Cert.KernelIdeal.main_arg2 (by decide) (by decide) (by decide) (by decide)),
     (h c _ (Cert.KernelIdeal.Whole.mem_uc Cert.KernelIdeal.main_arg3 (by decide))).trans
        (Cert.KernelIdeal.Whole.W4_kept m ρ c Cert.KernelIdeal.main_arg3 (by decide) (by decide) (by decide) (by decide))⟩)
    (Cert.KernelIdeal.Whole.run (F := Ideal) m ρ)

/-- The reference is a straight line of host operations: its run, the result dropped. -/
theorem frame_reference : Cert.frame_ReferenceIdeal := fun m ρ _ =>
  (θ_run (Cert.ReferenceIdeal.defs (F := Ideal)) _ _).mono (fun _ h c => (h c).2) (Cert.ReferenceIdeal.Value.run (F := Ideal) m ρ)

/-- The kernel program's result array, on extended reals, is the reference's term of the same four arrays: at entry
    (b, n, e) both are one and the same row of attention over the same projections. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Whole.W4 m ρ c (Proc.devRef .tc Cert.KernelIdeal.main_v8) : Cert.KernelIdeal.S8x2048x1024.Idx → EReal)
      = Cert.ReferenceIdeal.Read.val_main_v22 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨bb, n, e, rfl⟩ : ∃ (bb : Fin 8) (n : Fin 2048) (e : Fin 1024), i = ix3 bb n e := ⟨i 0, i 1, i 2, eq_ix3 i⟩
  exact (Cert.KernelIdeal.Whole.result_apply m ρ c bb n e).trans (Cert.ReferenceIdeal.RefRead.ref_apply _ _ _ _ bb n e).symm

/-- From memories agreeing on the arguments both programs run, the kernel program to its own final result array and
    the reference to its composed term, which is that array. -/
theorem algebraic : Cert.algebraic_KernelIdeal_ReferenceIdeal := by
  intro m ρ m' ρ' _ hagree
  refine ⟨fun c => Cert.KernelIdeal.Whole.W4 m ρ c (Proc.devRef .tc Cert.KernelIdeal.main_v8), ?_, ?_⟩
  · exact (θ_run (Cert.KernelIdeal.defs (F := Ideal)) _ _).mono (fun r h c =>
      ⟨h c _ (Cert.KernelIdeal.Whole.mem_uc Cert.KernelIdeal.main_v8 (by decide)),
       (h c _ (Cert.KernelIdeal.Whole.mem_uc Cert.KernelIdeal.main_arg0 (by decide))).trans
          (Cert.KernelIdeal.Whole.W4_kept m ρ c Cert.KernelIdeal.main_arg0 (by decide) (by decide) (by decide) (by decide)),
       (h c _ (Cert.KernelIdeal.Whole.mem_uc Cert.KernelIdeal.main_arg1 (by decide))).trans
          (Cert.KernelIdeal.Whole.W4_kept m ρ c Cert.KernelIdeal.main_arg1 (by decide) (by decide) (by decide) (by decide)),
       (h c _ (Cert.KernelIdeal.Whole.mem_uc Cert.KernelIdeal.main_arg2 (by decide))).trans
          (Cert.KernelIdeal.Whole.W4_kept m ρ c Cert.KernelIdeal.main_arg2 (by decide) (by decide) (by decide) (by decide)),
       (h c _ (Cert.KernelIdeal.Whole.mem_uc Cert.KernelIdeal.main_arg3 (by decide))).trans
          (Cert.KernelIdeal.Whole.W4_kept m ρ c Cert.KernelIdeal.main_arg3 (by decide) (by decide) (by decide) (by decide))⟩)
      (Cert.KernelIdeal.Whole.run (F := Ideal) m ρ)
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v22_eq, (hagree c).1, (hagree c).2.1, (hagree c).2.2.1, (hagree c).2.2.2]
    exact (value_eq m ρ c).symm

theorem claim : Cert.Claim := ⟨Cert.Kernel.Gen.facts, Cert.KernelIdeal.Gen.facts, Cert.ReferenceIdeal.Gen.facts, Cert.Pre_finite_inputs.Gen.facts,
  frame_bits, frame_ideal, frame_reference, trivial, algebraic⟩

end Cert.Proof

end
